-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x6400000 : Shape := ⟨2, ![2, 6400000]⟩
abbrev S6400000x1 : Shape := ⟨2, ![6400000, 1]⟩
abbrev S13x10 : Shape := ⟨2, ![13, 10]⟩
abbrev S10 : Shape := ⟨1, ![10]⟩
abbrev S10x2 : Shape := ⟨2, ![10, 2]⟩
abbrev S2 : Shape := ⟨1, ![2]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6400000x1 : S_.BroadcastsInDim S6400000x1 (![] : Fin 0 → Fin S6400000x1.rank)
  reducesTo_S6400000x1_S_d0_1 : S6400000x1.ReducesTo [0, 1] S_
  bcast_S_S13x10 : S_.BroadcastsInDim S13x10 (![] : Fin 0 → Fin S13x10.rank)
  reducesTo_S13x10_S_d0_1 : S13x10.ReducesTo [0, 1] S_
  bcast_S_S10 : S_.BroadcastsInDim S10 (![] : Fin 0 → Fin S10.rank)
  reducesTo_S10_S_d0 : S10.ReducesTo [0] S_
  bcast_S_S10x2 : S_.BroadcastsInDim S10x2 (![] : Fin 0 → Fin S10x2.rank)
  reducesTo_S10x2_S_d0_1 : S10x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S10 .f32) (main_arg6 : FVec F S10x2 .f32) (main_arg7 : FVec F S2 .f32) (main_v13 : IVec S_ 1) (main_v16 : IVec S13x10 1) : IVec S_ 1 :=
  let main_c_5 : IVec S_ 1 := constantI S_ 1 1#1
  let main_v17 : IVec S_ 1 := (fun x v => Host.reduce IntOp.andi x v reducesTo_S13x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x2 .f32 := Host.absf main_arg6
  let main_cst_8 : FVec F S_ .f32 := constant S_ .f32 0x7F800000#32
  let main_v25 : FVec F S10x2 .f32 := broadcastInDim S10x2 ![] bcast_S_S10x2 main_cst_8
  let main_v26 : IVec S10x2 1 := cmpf .olt main_v24 main_v25
  let main_c_9 : IVec S_ 1 := constantI S_ 1 1#1
  let main_v27 : IVec S_ 1 := (fun x v => Host.reduce IntOp.andi x v reducesTo_S10x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x6 .f32) (main_arg1 : IVec S2x6400000 32) (main_arg2 : FVec F S6400000x1 .f32) (main_arg3 : FVec F S6400000x1 .f32) (main_arg4 : FVec F S13x10 .f32) (main_arg5 : FVec F S10 .f32) (main_arg6 : FVec F S10x2 .f32) (main_arg7 : FVec F S2 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6400000x1 .f32 := Host.absf main_arg2
  let main_cst_0 : FVec F S_ .f32 := constant S_ .f32 0x7F800000#32
  let main_v5 : FVec F S6400000x1 .f32 := broadcastInDim S6400000x1 ![] bcast_S_S6400000x1 main_cst_0
  let main_v6 : IVec S6400000x1 1 := cmpf .olt main_v4 main_v5
  let main_c_1 : IVec S_ 1 := constantI S_ 1 1#1
  let main_v7 : IVec S_ 1 := (fun x v => Host.reduce IntOp.andi x v reducesTo_S6400000x1_S_d0_1 h_S_) main_v6 main_c_1
  let main_v8 : IVec S_ 1 := andi main_v3 main_v7
  let main_v9 : FVec F S6400000x1 .f32 := Host.absf main_arg3
  let main_cst_2 : FVec F S_ .f32 := constant S_ .f32 0x7F800000#32
  let main_v10 : FVec F S6400000x1 .f32 := broadcastInDim S6400000x1 ![] bcast_S_S6400000x1 main_cst_2
  let main_v11 : IVec S6400000x1 1 := cmpf .olt main_v9 main_v10
  let main_c_3 : IVec S_ 1 := constantI S_ 1 1#1
  let main_v12 : IVec S_ 1 := (fun x v => Host.reduce IntOp.andi x v reducesTo_S6400000x1_S_d0_1 h_S_) main_v11 main_c_3
  let main_v13 : IVec S_ 1 := andi main_v8 main_v12
  let main_v14 : FVec F S13x10 .f32 := Host.absf main_arg4
  let main_cst_4 : FVec F S_ .f32 := constant S_ .f32 0x7F800000#32
  let main_v15 : FVec F S13x10 .f32 := broadcastInDim S13x10 ![] bcast_S_S13x10 main_cst_4
  let main_v16 : IVec S13x10 1 := cmpf .olt main_v14 main_v15
  fn_part1 (F := F) main_arg5 main_arg6 main_arg7 main_v13 main_v16
-- ==== Kernel.lean ====
abbrev S100000x6 : Shape := ⟨2, ![100000, 6]⟩
abbrev S2x6400000 : Shape := ⟨2, ![2, 6400000]⟩
abbrev S6400000x1 : Shape := ⟨2, ![6400000, 1]⟩
abbrev S13x10 : Shape := ⟨2, ![13, 10]⟩
abbrev S10 : Shape := ⟨1, ![10]⟩
abbrev S10x2 : Shape := ⟨2, ![10, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S6400000x6 : Shape := ⟨2, ![6400000, 6]⟩
abbrev S6x6400000 : Shape := ⟨2, ![6, 6400000]⟩
abbrev S6x10 : Shape := ⟨2, ![6, 10]⟩
abbrev S10x6 : Shape := ⟨2, ![10, 6]⟩
abbrev S1x10 : Shape := ⟨2, ![1, 10]⟩
abbrev S10x1 : Shape := ⟨2, ![10, 1]⟩
abbrev S2x10 : Shape := ⟨2, ![2, 10]⟩
abbrev S6x25600 : Shape := ⟨2, ![6, 25600]⟩
abbrev S1x25600 : Shape := ⟨2, ![1, 25600]⟩
abbrev S25600 : Shape := ⟨1, ![25600]⟩
abbrev S10x25600 : Shape := ⟨2, ![10, 25600]⟩
abbrev S2x25600 : Shape := ⟨2, ![2, 25600]⟩
abbrev S2x1 : Shape := ⟨2, ![2, 1]⟩

abbrev nBuf : Space → Nat
  | .hbm => 50
  | .vmem => 16
  | .smem => 0
  | _ => 0

abbrev bufTy : (tb : Table) → Fin (tcTables nBuf tb) → BufTy
  | .hbm, ⟨0, _⟩ => ⟨S100000x6, .f32⟩
  | .hbm, ⟨1, _⟩ => ⟨S2x6400000, .i32⟩
  | .hbm, ⟨2, _⟩ => ⟨S6400000x1, .f32⟩
  | .hbm, ⟨3, _⟩ => ⟨S6400000x1, .f32⟩
  | .hbm, ⟨4, _⟩ => ⟨S13x10, .f32⟩
  | .hbm, ⟨5, _⟩ => ⟨S10, .f32⟩
  | .hbm, ⟨6, _⟩ => ⟨S10x2, .f32⟩
  | .hbm, ⟨7, _⟩ => ⟨S2, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S100000x6, .bf16⟩
  | .hbm, ⟨13, _⟩ => ⟨S_, .i32⟩
  | .hbm, ⟨14, _⟩ => ⟨S6400000, .i32⟩
  | .hbm, ⟨15, _⟩ => ⟨S6400000, .i1⟩
  | .hbm, ⟨16, _⟩ => ⟨S_, .i32⟩
  | .hbm, ⟨17, _⟩ => ⟨S6400000, .i32⟩
  | .hbm, ⟨18, _⟩ => ⟨S6400000, .i32⟩
  | .hbm, ⟨19, _⟩ => ⟨S6400000, .i32⟩
  | .hbm, ⟨20, _⟩ => ⟨S6400000x1, .i32⟩
  | .hbm, ⟨21, _⟩ => ⟨S6400000x6, .bf16⟩
  | .hbm, ⟨22, _⟩ => ⟨S6x6400000, .bf16⟩
  | .hbm, ⟨23, _⟩ => ⟨S_, .i32⟩
  | .hbm, ⟨24, _⟩ => ⟨S6400000, .i32⟩
  | .hbm, ⟨25, _⟩ => ⟨S6400000, .i1⟩
  | .hbm, ⟨26, _⟩ => ⟨S_, .i32⟩
  | .hbm, ⟨27, _⟩ => ⟨S6400000, .i32⟩
  | .hbm, ⟨28, _⟩ => ⟨S6400000, .i32⟩
  | .hbm, ⟨29, _⟩ => ⟨S6400000, .i32⟩
  | .hbm, ⟨30, _⟩ => ⟨S6400000x1, .i32⟩
  | .hbm, ⟨31, _⟩ => ⟨S6400000x6, .bf16⟩
  | .hbm, ⟨32, _⟩ => ⟨S6x6400000, .bf16⟩
  | .hbm, ⟨33, _⟩ => ⟨S6400000x1, .bf16⟩
  | .hbm, ⟨34, _⟩ => ⟨S1x6400000, .bf16⟩
  | .hbm, ⟨35, _⟩ => ⟨S6400000x1, .bf16⟩
  | .hbm, ⟨36, _⟩ => ⟨S1x6400000, .bf16⟩
  | .hbm, ⟨37, _⟩ => ⟨S6x10, .f32⟩
  | .hbm, ⟨38, _⟩ => ⟨S10x6, .f32⟩
  | .hbm, ⟨39, _⟩ => ⟨S10x6, .bf16⟩
  | .hbm, ⟨40, _⟩ => ⟨S6x10, .f32⟩
  | .hbm, ⟨41, _⟩ => ⟨S10x6, .f32⟩
  | .hbm, ⟨42, _⟩ => ⟨S10x6, .bf16⟩
  | .hbm, ⟨43, _⟩ => ⟨S1x10, .f32⟩
  | .hbm, ⟨44, _⟩ => ⟨S10x1, .f32⟩
  | .hbm, ⟨45, _⟩ => ⟨S10x1, .bf16⟩
  | .hbm, ⟨46, _⟩ => ⟨S2x10, .f32⟩
  | .hbm, ⟨47, _⟩ => ⟨S2x10, .bf16⟩
  | .hbm, ⟨48, _⟩ => ⟨S6400000, .f32⟩
  | .hbm, ⟨49, _⟩ => ⟨S6400000x1, .f32⟩
  | .local _ .vmem, ⟨0, _⟩ => ⟨S6x25600, .bf16⟩
  | .local _ .vmem, ⟨1, _⟩ => ⟨S6x25600, .bf16⟩
  | .local _ .vmem, ⟨2, _⟩ => ⟨S6x25600, .bf16⟩
  | .local _ .vmem, ⟨3, _⟩ => ⟨S6x25600, .bf16⟩
  | .local _ .vmem, ⟨4, _⟩ => ⟨S1x25600, .bf16⟩
  | .local _ .vmem, ⟨5, _⟩ => ⟨S1x25600, .bf16⟩
  | .local _ .vmem, ⟨6, _⟩ => ⟨S1x25600, .bf16⟩
  | .local _ .vmem, ⟨7, _⟩ => ⟨S1x25600, .bf16⟩
  | .local _ .vmem, ⟨8, _⟩ => ⟨S10x6, .bf16⟩
  | .local _ .vmem, ⟨9, _⟩ => ⟨S10x6, .bf16⟩
  | .local _ .vmem, ⟨10, _⟩ => ⟨S10x1, .bf16⟩
  | .local _ .vmem, ⟨11, _⟩ => ⟨S10, .f32⟩
  | .local _ .vmem, ⟨12, _⟩ => ⟨S2x10, .bf16⟩
  | .local _ .vmem, ⟨13, _⟩ => ⟨S2, .f32⟩
  | .local _ .vmem, ⟨14, _⟩ => ⟨S25600, .f32⟩
  | .local _ .vmem, ⟨15, _⟩ => ⟨S25600, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S6x25600 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x25600 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x25600 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x25600 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10x6 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x6 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x10 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S25600 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bitsLt_bf16_f32 : FTy.bits .bf16 < FTy.bits .f32
  bcast_S_S6400000 : S_.BroadcastsInDim S6400000 (![] : Fin 0 → Fin S6400000.rank)
  bcast_S6400000_S6400000x1_0 : S6400000.BroadcastsInDim S6400000x1 (![0] : Fin 1 → Fin S6400000x1.rank)
  transposes_S6400000x6_S6x6400000_1_0 : S6400000x6.Transposes [1, 0] S6x6400000
  transposes_S6400000x1_S1x6400000_1_0 : S6400000x1.Transposes [1, 0] S1x6400000
  slices_S13x10_S6x10_0_0 : S13x10.Slices ![0, 0] S6x10
  transposes_S6x10_S10x6_1_0 : S6x10.Transposes [1, 0] S10x6
  slices_S13x10_S6x10_6_0 : S13x10.Slices ![6, 0] S6x10
  slices_S13x10_S1x10_12_0 : S13x10.Slices ![12, 0] S1x10
  transposes_S1x10_S10x1_1_0 : S1x10.Transposes [1, 0] S10x1
  transposes_S10x2_S2x10_1_0 : S10x2.Transposes [1, 0] S2x10
  inb_S6x25600_S6x25600_0_0 : ∀ a, (![0, 0] : Fin 2 → Nat) a + S6x25600.size a ≤ S6x25600.size a
  h_S6x25600 : 0 < S6x25600.numel
  shapeCasts_S6x25600_S6x25600 : S6x25600.ShapeCasts S6x25600
  inb_S1x25600_S1x25600_0_0 : ∀ a, (![0, 0] : Fin 2 → Nat) a + S1x25600.size a ≤ S1x25600.size a
  h_S1x25600 : 0 < S1x25600.numel
  shapeCasts_S1x25600_S1x25600 : S1x25600.ShapeCasts S1x25600
  inb_S10x6_S10x6_0_0 : ∀ a, (![0, 0] : Fin 2 → Nat) a + S10x6.size a ≤ S10x6.size a
  h_S10x6 : 0 < S10x6.numel
  shapeCasts_S10x6_S10x6 : S10x6.ShapeCasts S10x6
  inb_S10x1_S10x1_0_0 : ∀ a, (![0, 0] : Fin 2 → Nat) a + S10x1.size a ≤ S10x1.size a
  h_S10x1 : 0 < S10x1.numel
  shapeCasts_S10x1_S10x1 : S10x1.ShapeCasts S10x1
  inb_S10_S10_0 : ∀ a, (![0] : Fin 1 → Nat) a + S10.size a ≤ S10.size a
  h_S10 : 0 < S10.numel
  inb_S2x10_S2x10_0_0 : ∀ a, (![0, 0] : Fin 2 → Nat) a + S2x10.size a ≤ S2x10.size a
  h_S2x10 : 0 < S2x10.numel
  shapeCasts_S2x10_S2x10 : S2x10.ShapeCasts S2x10
  inb_S2_S2_0 : ∀ a, (![0] : Fin 1 → Nat) a + S2.size a ≤ S2.size a
  h_S2 : 0 < S2.numel
  broadcasts_S10x1_S10x25600 : S10x1.Broadcasts S10x25600
  broadcasts_S1x25600_S10x25600 : S1x25600.Broadcasts S10x25600
  shapeCasts_S10_S10x1 : S10.ShapeCasts S10x1
  shapeCasts_S2_S2x1 : S2.ShapeCasts S2x1
  broadcasts_S2x1_S2x25600 : S2x1.Broadcasts S2x25600
  slices_S2x25600_o1_0_S1x25600 : S2x25600.Slices ![1, 0] S1x25600
  shapeCasts_S1x25600_S25600 : S1x25600.ShapeCasts S25600
  slices_S2x25600_o0_0_S1x25600 : S2x25600.Slices ![0, 0] S1x25600
  inb_S25600_S25600_0 : ∀ a, (![0] : Fin 1 → Nat) a + S25600.size a ≤ S25600.size a
  h_S25600 : 0 < S25600.numel
  shapeCasts_S6400000_S6400000x1 : S6400000.ShapeCasts S6400000x1
  gather_S100000x6_S6400000x1_S6400000x6_1_0_n_n_0_1_16_wf : GatherDims.WF S100000x6 S6400000x1 S6400000x6 [1] [0] [] [0] [] 1 ![1, 6]
  dot_S10x6_S6x25600_S10x25600_1_0_0_1_n_n_wf : DotDims.WF S10x6 S6x25600 S10x25600 [1] [0] [0] [1] [] []
  dot_S2x10_S10x25600_S2x25600_1_0_0_1_n_n_wf : DotDims.WF S2x10 S10x25600 S2x25600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x25600.size a ≤ S6x6400000.size a
  hwx0_0 : ∀ i : grid0.Coords, EltTy.bits .bf16 = 32 ∨ (Rect.block (s := S6x6400000) S6x25600.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x25600.size a ≤ S6x6400000.size a
  hwx0_1 : ∀ i : grid0.Coords, EltTy.bits .bf16 = 32 ∨ (Rect.block (s := S6x6400000) S6x25600.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x25600.size a ≤ S1x6400000.size a
  hwx0_2 : ∀ i : grid0.Coords, EltTy.bits .bf16 = 32 ∨ (Rect.block (s := S1x6400000) S1x25600.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x25600.size a ≤ S1x6400000.size a
  hwx0_3 : ∀ i : grid0.Coords, EltTy.bits .bf16 = 32 ∨ (Rect.block (s := S1x6400000) S1x25600.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x6.size a ≤ S10x6.size a
  hwx0_4 : ∀ i : grid0.Coords, EltTy.bits .bf16 = 32 ∨ (Rect.block (s := S10x6) S10x6.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x6.size a ≤ S10x6.size a
  hwx0_5 : ∀ i : grid0.Coords, EltTy.bits .bf16 = 32 ∨ (Rect.block (s := S10x6) S10x6.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x1.size a ≤ S10x1.size a
  hwx0_6 : ∀ i : grid0.Coords, EltTy.bits .bf16 = 32 ∨ (Rect.block (s := S10x1) S10x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10.size a ≤ S10.size a
  hwx0_7 : ∀ i : grid0.Coords, EltTy.bits .f32 = 32 ∨ (Rect.block (s := S10) S10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x10.size a ≤ S2x10.size a
  hwx0_8 : ∀ i : grid0.Coords, EltTy.bits .bf16 = 32 ∨ (Rect.block (s := S2x10) S2x10.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2.size a ≤ S2.size a
  hwx0_9 : ∀ i : grid0.Coords, EltTy.bits .f32 = 32 ∨ (Rect.block (s := S2) S2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S25600.size a ≤ S6400000.size a
  hwx0_10 : ∀ i : grid0.Coords, EltTy.bits .f32 = 32 ∨ (Rect.block (s := S6400000) S25600.size (cc0_transform_10 i) (hinb0_10 i)).WholeWords (EltTy.packing .f32)

variable [Facts₀]

def gather_S100000x6_S6400000x1_S6400000x6_1_0_n_n_0_1_16 : GatherDims S100000x6 S6400000x1 S6400000x6 where
  offsetDims := [1]
  collapsedSliceDims := [0]
  operandBatchingDims := []
  startIndicesBatchingDims := []
  startIndexMap := [0]
  indexVectorDim := 1
  sliceSizes := ![1, 6]
  wf := gather_S100000x6_S6400000x1_S6400000x6_1_0_n_n_0_1_16_wf
def dot_S10x6_S6x25600_S10x25600_1_0_0_1_n_n : DotDims S10x6 S6x25600 S10x25600 where
  lhsContracting := [1]
  rhsContracting := [0]
  lhsNonContracting := [0]
  rhsNonContracting := [1]
  lhsBatch := []
  rhsBatch := []
  wf := dot_S10x6_S6x25600_S10x25600_1_0_0_1_n_n_wf
def dot_S2x10_S10x25600_S2x25600_1_0_0_1_n_n : DotDims S2x10 S10x25600 S2x25600 where
  lhsContracting := [1]
  rhsContracting := [0]
  lhsNonContracting := [0]
  rhsNonContracting := [1]
  lhsBatch := []
  rhsBatch := []
  wf := dot_S2x10_S10x25600_S2x25600_1_0_0_1_n_n_wf

abbrev win0_0 : Pipeline.Window sig grid0 :=
  Pipeline.Window.ofSpec (Memref.whole main_v12) S6x25600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S6x25600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x25600.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x25600.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S10x6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S10x6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S10x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S2x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S25600.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x6 : Shape := ⟨2, ![100000, 6]⟩
abbrev S2x6400000 : Shape := ⟨2, ![2, 6400000]⟩
abbrev S6400000x1 : Shape := ⟨2, ![6400000, 1]⟩
abbrev S13x10 : Shape := ⟨2, ![13, 10]⟩
abbrev S10 : Shape := ⟨1, ![10]⟩
abbrev S10x2 : Shape := ⟨2, ![10, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S6400000x6 : Shape := ⟨2, ![6400000, 6]⟩
abbrev S6400000x13 : Shape := ⟨2, ![6400000, 13]⟩
abbrev S6400000x10 : Shape := ⟨2, ![6400000, 10]⟩
abbrev S1x10 : Shape := ⟨2, ![1, 10]⟩
abbrev S6400000x2 : Shape := ⟨2, ![6400000, 2]⟩
abbrev S1x2 : Shape := ⟨2, ![1, 2]⟩

abbrev nBuf : Space → Nat
  | .hbm => 73
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S2x6400000, .i32⟩
  | .hbm, ⟨2, _⟩ => ⟨S6400000x1, .f32⟩
  | .hbm, ⟨3, _⟩ => ⟨S6400000x1, .f32⟩
  | .hbm, ⟨4, _⟩ => ⟨S13x10, .f32⟩
  | .hbm, ⟨5, _⟩ => ⟨S10, .f32⟩
  | .hbm, ⟨6, _⟩ => ⟨S10x2, .f32⟩
  | .hbm, ⟨7, _⟩ => ⟨S2, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .i32⟩
  | .hbm, ⟨13, _⟩ => ⟨S6400000, .i32⟩
  | .hbm, ⟨14, _⟩ => ⟨S6400000, .i1⟩
  | .hbm, ⟨15, _⟩ => ⟨S_, .i32⟩
  | .hbm, ⟨16, _⟩ => ⟨S6400000, .i32⟩
  | .hbm, ⟨17, _⟩ => ⟨S6400000, .i32⟩
  | .hbm, ⟨18, _⟩ => ⟨S6400000, .i32⟩
  | .hbm, ⟨19, _⟩ => ⟨S6400000x1, .i32⟩
  | .hbm, ⟨20, _⟩ => ⟨S6400000x6, .f32⟩
  | .hbm, ⟨21, _⟩ => ⟨S_, .i32⟩
  | .hbm, ⟨22, _⟩ => ⟨S6400000, .i32⟩
  | .hbm, ⟨23, _⟩ => ⟨S6400000, .i1⟩
  | .hbm, ⟨24, _⟩ => ⟨S_, .i32⟩
  | .hbm, ⟨25, _⟩ => ⟨S6400000, .i32⟩
  | .hbm, ⟨26, _⟩ => ⟨S6400000, .i32⟩
  | .hbm, ⟨27, _⟩ => ⟨S6400000, .i32⟩
  | .hbm, ⟨28, _⟩ => ⟨S6400000x1, .i32⟩
  | .hbm, ⟨29, _⟩ => ⟨S6400000x6, .f32⟩
  | .hbm, ⟨30, _⟩ => ⟨S6400000x13, .f32⟩
  | .hbm, ⟨31, _⟩ => ⟨S6400000x13, .f32⟩
  | .hbm, ⟨32, _⟩ => ⟨S6400000x10, .f32⟩
  | .hbm, ⟨33, _⟩ => ⟨S1x10, .f32⟩
  | .hbm, ⟨34, _⟩ => ⟨S6400000x10, .f32⟩
  | .hbm, ⟨35, _⟩ => ⟨S6400000x10, .f32⟩
  | .hbm, ⟨36, _⟩ => ⟨S_, .f32⟩
  | .hbm, ⟨37, _⟩ => ⟨S6400000x10, .f32⟩
  | .hbm, ⟨38, _⟩ => ⟨S6400000x10, .f32⟩
  | .hbm, ⟨39, _⟩ => ⟨S6400000x2, .f32⟩
  | .hbm, ⟨40, _⟩ => ⟨S1x2, .f32⟩
  | .hbm, ⟨41, _⟩ => ⟨S6400000x2, .f32⟩
  | .hbm, ⟨42, _⟩ => ⟨S6400000x2, .f32⟩
  | .hbm, ⟨43, _⟩ => ⟨S6400000x10, .f32⟩
  | .hbm, ⟨44, _⟩ => ⟨S1x10, .f32⟩
  | .hbm, ⟨45, _⟩ => ⟨S6400000x10, .f32⟩
  | .hbm, ⟨46, _⟩ => ⟨S6400000x10, .f32⟩
  | .hbm, ⟨47, _⟩ => ⟨S_, .f32⟩
  | .hbm, ⟨48, _⟩ => ⟨S6400000x10, .f32⟩
  | .hbm, ⟨49, _⟩ => ⟨S6400000x10, .f32⟩
  | .hbm, ⟨50, _⟩ => ⟨S6400000x2, .f32⟩
  | .hbm, ⟨51, _⟩ => ⟨S1x2, .f32⟩
  | .hbm, ⟨52, _⟩ => ⟨S6400000x2, .f32⟩
  | .hbm, ⟨53, _⟩ => ⟨S6400000x2, .f32⟩
  | .hbm, ⟨54, _⟩ => ⟨S6400000x2, .f32⟩
  | .hbm, ⟨55, _⟩ => ⟨S_, .f32⟩
  | .hbm, ⟨56, _⟩ => ⟨S6400000x2, .f32⟩
  | .hbm, ⟨57, _⟩ => ⟨S6400000x2, .f32⟩
  | .hbm, ⟨58, _⟩ => ⟨S_, .f32⟩
  | .hbm, ⟨59, _⟩ => ⟨S6400000, .f32⟩
  | .hbm, ⟨60, _⟩ => ⟨S_, .f32⟩
  | .hbm, ⟨61, _⟩ => ⟨S6400000, .f32⟩
  | .hbm, ⟨62, _⟩ => ⟨S6400000, .f32⟩
  | .hbm, ⟨63, _⟩ => ⟨S6400000x1, .f32⟩
  | .hbm, ⟨64, _⟩ => ⟨S6400000x2, .f32⟩
  | .hbm, ⟨65, _⟩ => ⟨S6400000x2, .f32⟩
  | .hbm, ⟨66, _⟩ => ⟨S6400000x2, .f32⟩
  | .hbm, ⟨67, _⟩ => ⟨S_, .f32⟩
  | .hbm, ⟨68, _⟩ => ⟨S6400000, .f32⟩
  | .hbm, ⟨69, _⟩ => ⟨S6400000x1, .f32⟩
  | .hbm, ⟨70, _⟩ => ⟨S6400000x2, .f32⟩
  | .hbm, ⟨71, _⟩ => ⟨S6400000x2, .f32⟩
  | .hbm, ⟨72, _⟩ => ⟨S6400000x1, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x6_S6400000x6_S6400000x1_S6400000x13_d1 : Shape.Concatenates [S6400000x6, S6400000x6, S6400000x1] S6400000x13 1
  bcast_S10_S1x10_1 : S10.BroadcastsInDim S1x10 (![1] : Fin 1 → Fin S1x10.rank)
  bcast_S1x10_S6400000x10_0_1 : S1x10.BroadcastsInDim S6400000x10 (![0, 1] : Fin 2 → Fin S6400000x10.rank)
  bcast_S_S6400000x10 : S_.BroadcastsInDim S6400000x10 (![] : Fin 0 → Fin S6400000x10.rank)
  bcast_S2_S1x2_1 : S2.BroadcastsInDim S1x2 (![1] : Fin 1 → Fin S1x2.rank)
  bcast_S1x2_S6400000x2_0_1 : S1x2.BroadcastsInDim S6400000x2 (![0, 1] : Fin 2 → Fin S6400000x2.rank)
  bcast_S_S6400000x2 : S_.BroadcastsInDim S6400000x2 (![] : Fin 0 → Fin S6400000x2.rank)
  reducesTo_S6400000x2_S6400000_d1 : S6400000x2.ReducesTo [1] S6400000
  h_S_ : 0 < S_.numel
  bcast_S6400000x1_S6400000x2_0_1 : S6400000x1.BroadcastsInDim S6400000x2 (![0, 1] : Fin 2 → Fin S6400000x2.rank)
  slices_S6400000x2_S6400000x1_0_1 : S6400000x2.Slices ![0, 1] S6400000x1
  gather_S100000x6_S6400000x1_S6400000x6_1_0_n_n_0_1_16_wf : GatherDims.WF S100000x6 S6400000x1 S6400000x6 [1] [0] [] [0] [] 1 ![1, 6]
  dot_S6400000x13_S13x10_S6400000x10_1_0_0_1_n_n_wf : DotDims.WF S6400000x13 S13x10 S6400000x10 [1] [0] [0] [1] [] []
  dot_S6400000x10_S10x2_S6400000x2_1_0_0_1_n_n_wf : DotDims.WF S6400000x10 S10x2 S6400000x2 [1] [0] [0] [1] [] []

variable [Facts₀]

def gather_S100000x6_S6400000x1_S6400000x6_1_0_n_n_0_1_16 : GatherDims S100000x6 S6400000x1 S6400000x6 where
  offsetDims := [1]
  collapsedSliceDims := [0]
  operandBatchingDims := []
  startIndicesBatchingDims := []
  startIndexMap := [0]
  indexVectorDim := 1
  sliceSizes := ![1, 6]
  wf := gather_S100000x6_S6400000x1_S6400000x6_1_0_n_n_0_1_16_wf
def dot_S6400000x13_S13x10_S6400000x10_1_0_0_1_n_n : DotDims S6400000x13 S13x10 S6400000x10 where
  lhsContracting := [1]
  rhsContracting := [0]
  lhsNonContracting := [0]
  rhsNonContracting := [1]
  lhsBatch := []
  rhsBatch := []
  wf := dot_S6400000x13_S13x10_S6400000x10_1_0_0_1_n_n_wf
def dot_S6400000x10_S10x2_S6400000x2_1_0_0_1_n_n : DotDims S6400000x10 S10x2 S6400000x2 where
  lhsContracting := [1]
  rhsContracting := [0]
  lhsNonContracting := [0]
  rhsNonContracting := [1]
  lhsBatch := []
  rhsBatch := []
  wf := dot_S6400000x10_S10x2_S6400000x2_1_0_0_1_n_n_wf

class Facts : Prop extends Facts₀ where

variable [Facts]
-- ==== Proof.EdgeSpec.lean ====
/-
  One edge of the symmetric edge classifier, as each program computes it.

  An edge has a source row `a` and a target row `b` of six node features each and one scalar attribute `e`.  The
  13 × 10 weight matrix `W1` acts on the thirteen features (a, b, e): rows 0–5 on `a`, rows 6–11 on `b`, row 12
  on `e`.  A hidden unit is max(W1ᵀ·(a, b, e) + b1, 0); an output logit is W2ᵀ·hidden + b2; the edge's two logits
  z 0, z 1 are half the sum of the logits of (a, b, e) and of the reversed edge (b, a, e').  The result is the
  probability of class 1.

  The kernel side spells the thirteen-term product as two six-term sums and one product and the probability as the
  logistic function of z 1 − z 0.  The reference side spells it as one thirteen-term sum over the concatenated
  feature vector and the probability as the second entry of the softmax of (z 0, z 1), shifted by the larger logit.
  The float words 0, 1/2 and −∞ are kept as patterns; only the laws' proofs evaluate them.
-/
import Idealize.ShloMosaic.PureOps.Ideal
import Idealize.ShloMosaic.Lib.ValueIdx

noncomputable section

namespace Cert.EdgeSpec

open Idealize.ShloMosaic Idealize.ShloMosaic.ValueIdx

/-- The f32 words the two programs share: zero, one half, and minus infinity. -/
abbrev zeroW : EReal := Ideal.ofBits .f32 0x00000000#32
abbrev halfW : EReal := Ideal.ofBits .f32 0x3F000000#32
abbrev ninfW : EReal := Ideal.ofBits .f32 0xFF800000#32

/-- Rows of W1 by role: row k acts on source feature k, row 6 + k on target feature k, row 12 on the attribute. -/
def rowA (k : Fin 6) : Fin 13 := ⟨k.val, by omega⟩
def rowB (k : Fin 6) : Fin 13 := ⟨6 + k.val, by omega⟩
def rowE : Fin 13 := ⟨12, by omega⟩

variable (W1 : (⟨2, ![13, 10]⟩ : Shape).Idx → EReal) (b1 : (⟨1, ![10]⟩ : Shape).Idx → EReal)
  (W2 : (⟨2, ![10, 2]⟩ : Shape).Idx → EReal) (b2 : (⟨1, ![2]⟩ : Shape).Idx → EReal)

/-! ## The kernel's spelling -/

/-- Hidden unit r: the product split by role, weights on the left. -/
def hidK (a b : Fin 6 → EReal) (e : EReal) (r : Fin 10) : EReal :=
  max ((((∑ k : Fin 6, W1 (ix2 (rowA k) r) * a k) + ∑ k : Fin 6, W1 (ix2 (rowB k) r) * b k)
        + W1 (ix2 rowE r) * e) + b1 (ix1 r)) zeroW

/-- Output logit c of one direction of the edge. -/
def outK (a b : Fin 6 → EReal) (e : EReal) (c : Fin 2) : EReal :=
  (∑ r : Fin 10, W2 (ix2 r c) * hidK W1 b1 a b e r) + b2 (ix1 c)

/-- The symmetrised logit c: half the sum over the two directions. -/
def zK (a b : Fin 6 → EReal) (e e' : EReal) (c : Fin 2) : EReal :=
  (outK W1 b1 W2 b2 a b e c + outK W1 b1 W2 b2 b a e' c) * halfW

/-- The kernel's result on the edge: the logistic function of the logit difference. -/
def resK (a b : Fin 6 → EReal) (e e' : EReal) : EReal :=
  Ideal.logistic (zK W1 b1 W2 b2 a b e e' 1 - zK W1 b1 W2 b2 a b e e' 0)

/-! ## The reference's spelling -/

/-- The concatenated feature vector (a, b, e). -/
def feat (a b : Fin 6 → EReal) (e : EReal) (j : Fin 13) : EReal :=
  if h : j.val < 6 then a ⟨j.val, h⟩ else if h' : j.val < 12 then b ⟨j.val - 6, by omega⟩ else e

/-- Hidden unit r: one thirteen-term sum, features on the left. -/
def hidR (f : Fin 13 → EReal) (r : Fin 10) : EReal :=
  max ((∑ j : Fin 13, f j * W1 (ix2 j r)) + b1 (ix1 r)) zeroW

def outR (f : Fin 13 → EReal) (c : Fin 2) : EReal :=
  (∑ r : Fin 10, hidR W1 b1 f r * W2 (ix2 r c)) + b2 (ix1 c)

def zR (f f' : Fin 13 → EReal) (c : Fin 2) : EReal :=
  (outR W1 b1 W2 b2 f c + outR W1 b1 W2 b2 f' c) * halfW

/-- The shift of the softmax: the running maximum from −∞ over the two logits, once more against −∞. -/
def shiftR (z : Fin 2 → EReal) : EReal := max ninfW ((Finset.univ : Finset (Fin 2)).fold max ninfW z)

/-- Entry 1 of the shifted softmax of two logits: e^(z 1 − m) over 0 + e^(z 0 − m) + e^(z 1 − m). -/
def softmax1 (z : Fin 2 → EReal) : EReal :=
  Ideal.div (Ideal.exp (z 1 - shiftR z)) (zeroW + ∑ c : Fin 2, Ideal.exp (z c - shiftR z))

/-- The reference's result on the edge. -/
def resR (a b : Fin 6 → EReal) (e e' : EReal) : EReal :=
  softmax1 (zR W1 b1 W2 b2 (feat a b e) (feat b a e'))

/-- An extended real that is a real number. -/
def IsReal (x : EReal) : Prop := ∃ r : ℝ, x = (r : EReal)

end Cert.EdgeSpec

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.KernelLane.lean ====
/-
  One lane of the kernel body.

  At a lane l of a block the body reads column l of the source rows and of the target rows (six features each), entry l
  of the two attribute rows, and the whole of the small weight blocks.  The two hidden products are plain sums over the
  six features, the output product a plain sum over the ten hidden units; a column [a, 1] or a row [1, b] spread over
  [a, b] reads the column's or the row's entry; so the stored value at lane l is the logistic function of the difference
  of the lane's two symmetrised logits, in the kernel's spelling of the edge specification.
-/
import proofs.«163541_j61598420959300_2_alg».proof.Proof.Gen.KernelIdeal.Frame
import proofs.«163541_j61598420959300_2_alg».proof.Proof.EdgeSpec
import proofs.«163541_j61598420959300_2_alg».proof.Proof.LibPlainDot
import proofs.«163541_j61598420959300_2_alg».proof.Proof.LibUnitAxes
import Idealize.ShloMosaic.Lib.ValueLayout
import Idealize.ShloMosaic.Lib.Pipeline.Value
import Idealize.ShloMosaic.Lib.ValueIdx
import Idealize.ShloMosaic.PureOps.Ideal.Laws

noncomputable section

namespace Cert.KernelLane

open Cert.KernelIdeal Cert.KernelIdeal.Gen Idealize.ShloMosaic Idealize.ShloMosaic.ValueIdx Cert.EdgeSpec

/-! ## The two products' dimension numbers: the uncontracted coordinates pass through -/

theorem hidDims_row (j : S10x25600.Idx) (q : dot_S10x6_S6x25600_S10x25600_1_0_0_1_n_n.contr.Idx) :
    (dot_S10x6_S6x25600_S10x25600_1_0_0_1_n_n.lhsIdx j q 0).val = (j 0).val := by
  unfold DotDims.lhsIdx
  rw [dif_neg (show ¬(0 : Fin S10x6.rank) ∈ dot_S10x6_S6x25600_S10x25600_1_0_0_1_n_n.lhsBatch by decide),
    dif_pos (show (0 : Fin S10x6.rank) ∈ dot_S10x6_S6x25600_S10x25600_1_0_0_1_n_n.lhsNonContracting by decide)]
  rfl

theorem hidDims_col (j : S10x25600.Idx) (q : dot_S10x6_S6x25600_S10x25600_1_0_0_1_n_n.contr.Idx) :
    (dot_S10x6_S6x25600_S10x25600_1_0_0_1_n_n.rhsIdx j q 1).val = (j 1).val := by
  unfold DotDims.rhsIdx
  rw [dif_neg (show ¬(1 : Fin S6x25600.rank) ∈ dot_S10x6_S6x25600_S10x25600_1_0_0_1_n_n.rhsBatch by decide),
    dif_pos (show (1 : Fin S6x25600.rank) ∈ dot_S10x6_S6x25600_S10x25600_1_0_0_1_n_n.rhsNonContracting by decide)]
  rfl

theorem outDims_row (j : S2x25600.Idx) (q : dot_S2x10_S10x25600_S2x25600_1_0_0_1_n_n.contr.Idx) :
    (dot_S2x10_S10x25600_S2x25600_1_0_0_1_n_n.lhsIdx j q 0).val = (j 0).val := by
  unfold DotDims.lhsIdx
  rw [dif_neg (show ¬(0 : Fin S2x10.rank) ∈ dot_S2x10_S10x25600_S2x25600_1_0_0_1_n_n.lhsBatch by decide),
    dif_pos (show (0 : Fin S2x10.rank) ∈ dot_S2x10_S10x25600_S2x25600_1_0_0_1_n_n.lhsNonContracting by decide)]
  rfl

theorem outDims_col (j : S2x25600.Idx) (q : dot_S2x10_S10x25600_S2x25600_1_0_0_1_n_n.contr.Idx) :
    (dot_S2x10_S10x25600_S2x25600_1_0_0_1_n_n.rhsIdx j q 1).val = (j 1).val := by
  unfold DotDims.rhsIdx
  rw [dif_neg (show ¬(1 : Fin S10x25600.rank) ∈ dot_S2x10_S10x25600_S2x25600_1_0_0_1_n_n.rhsBatch by decide),
    dif_pos (show (1 : Fin S10x25600.rank) ∈ dot_S2x10_S10x25600_S2x25600_1_0_0_1_n_n.rhsNonContracting by decide)]
  rfl

/-- A hidden product (weights 10 × 6 by features 6 × lanes) at (r, l): the sum over the six features. -/
theorem hidProd_at (w : FVec Ideal S10x6 .bf16) (x : FVec Ideal S6x25600 .bf16) (r : Fin 10) (l : Fin 25600) :
    matmul dot_S10x6_S6x25600_S10x25600_1_0_0_1_n_n none w x (constant S10x25600 .f32 0x00000000#32) (ix2 r l)
      = ∑ k : Fin 6, w (ix2 r k) * x (ix2 k l) :=
  Cert.LibPlainDot.matmul_zero_apply dot_S10x6_S6x25600_S10x25600_1_0_0_1_n_n rfl rfl rfl rfl hidDims_row hidDims_col none w x r l

/-- The output product (weights 2 × 10 by hidden 10 × lanes) at (c, l): the sum over the ten hidden units. -/
theorem outProd_at (w : FVec Ideal S2x10 .bf16) (h : FVec Ideal S10x25600 .bf16) (c : Fin 2) (l : Fin 25600) :
    matmul dot_S2x10_S10x25600_S2x25600_1_0_0_1_n_n none w h (constant S2x25600 .f32 0x00000000#32) (ix2 c l)
      = ∑ r : Fin 10, w (ix2 c r) * h (ix2 r l) :=
  Cert.LibPlainDot.matmul_zero_apply dot_S2x10_S10x25600_S2x25600_1_0_0_1_n_n rfl rfl rfl rfl outDims_row outDims_col none w h c l

/-! ## Unit axes -/

/-- A vector [a] cast to a column [a, 1] reads, at (p, 0), the vector at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-! ## The hidden layer of one direction -/

/-- The hidden layer as the body spells it: two products, the attribute's outer product, the bias, the rectifier. -/
def hidVec (ws wt : FVec Ideal S10x6 .bf16) (we : FVec Ideal S10x1 .f32) (bb : FVec Ideal S10 .f32)
    (xa xb : FVec Ideal S6x25600 .bf16) (xe : FVec Ideal S1x25600 .f32) : FVec Ideal S10x25600 .f32 :=
  maximumf
    (addf
      (addf
        (addf (matmul dot_S10x6_S6x25600_S10x25600_1_0_0_1_n_n none ws xa (constant S10x25600 .f32 0x00000000#32))
              (matmul dot_S10x6_S6x25600_S10x25600_1_0_0_1_n_n none wt xb (constant S10x25600 .f32 0x00000000#32)))
        (mulf (broadcastTo S10x25600 we broadcasts_S10x1_S10x25600) (broadcastTo S10x25600 xe broadcasts_S1x25600_S10x25600)))
      (broadcastTo S10x25600 (shapeCast S10x1 bb shapeCasts_S10_S10x1) broadcasts_S10x1_S10x25600))
    (broadcast S10x25600 (Scalar.ofBits .f32 0x00000000#32))

/-- Hidden unit r at lane l. -/
theorem hidVec_at (ws wt : FVec Ideal S10x6 .bf16) (we : FVec Ideal S10x1 .f32) (bb : FVec Ideal S10 .f32)
    (xa xb : FVec Ideal S6x25600 .bf16) (xe : FVec Ideal S1x25600 .f32) (r : Fin 10) (l : Fin 25600) :
    hidVec ws wt we bb xa xb xe (ix2 r l)
      = max ((((∑ k : Fin 6, ws (ix2 r k) * xa (ix2 k l)) + ∑ k : Fin 6, wt (ix2 r k) * xb (ix2 k l))
              + we (ix2 r (0 : Fin 1)) * xe (ix2 (0 : Fin 1) l)) + bb (ix1 r)) zeroW := by
  unfold hidVec
  rw [maximumf_apply, addf_apply, addf_apply, addf_apply, mulf_apply, hidProd_at, hidProd_at,
    Cert.LibUnitAxes.broadcastTo_a1_ab_apply, broadcastTo_1b_ab_apply, Cert.LibUnitAxes.broadcastTo_a1_ab_apply,
    shapeCast_a_a1_apply]
  rfl

/-! ## The output logits of one direction -/

def logitVec (w2 : FVec Ideal S2x10 .bf16) (b2v : FVec Ideal S2 .f32) (H : FVec Ideal S10x25600 .f32) : FVec Ideal S2x25600 .f32 :=
  addf (matmul dot_S2x10_S10x25600_S2x25600_1_0_0_1_n_n none w2 (truncf .bf16 H bitsLt_bf16_f32) (constant S2x25600 .f32 0x00000000#32))
    (broadcastTo S2x25600 (shapeCast S2x1 b2v shapeCasts_S2_S2x1) broadcasts_S2x1_S2x25600)

/-- Logit c at lane l. -/
theorem logitVec_at (w2 : FVec Ideal S2x10 .bf16) (b2v : FVec Ideal S2 .f32) (H : FVec Ideal S10x25600 .f32)
    (c : Fin 2) (l : Fin 25600) :
    logitVec w2 b2v H (ix2 c l) = (∑ r : Fin 10, w2 (ix2 c r) * H (ix2 r l)) + b2v (ix1 c) := by
  unfold logitVec
  rw [addf_apply, outProd_at, Cert.LibUnitAxes.broadcastTo_a1_ab_apply, shapeCast_a_a1_apply]
  rfl

/-! ## The stored value -/

/-- The body's last lines: the two directions' logits added and halved, row 1 minus row 0, the logistic function. -/
def laneVec (O1 O2 : FVec Ideal S2x25600 .f32) : FVec Ideal S25600 .f32 :=
  logistic
    (subf
      (shapeCast S25600 (extractStridedSlice S1x25600 ![1, 0] (mulf (addf O1 O2) (broadcast S2x25600 (Scalar.ofBits .f32 0x3F000000#32))) slices_S2x25600_o1_0_S1x25600) shapeCasts_S1x25600_S25600)
      (shapeCast S25600 (extractStridedSlice S1x25600 ![0, 0] (mulf (addf O1 O2) (broadcast S2x25600 (Scalar.ofBits .f32 0x3F000000#32))) slices_S2x25600_o0_0_S1x25600) shapeCasts_S1x25600_S25600))

theorem laneVec_at (O1 O2 : FVec Ideal S2x25600 .f32) (l : Fin 25600) :
    laneVec O1 O2 (ix1 l)
      = Ideal.logistic ((O1 (ix2 (1 : Fin 2) l) + O2 (ix2 (1 : Fin 2) l)) * halfW - (O1 (ix2 (0 : Fin 2) l) + O2 (ix2 (0 : Fin 2) l)) * halfW) := by
  unfold laneVec
  show Ideal.logistic (_ - _) = _
  rw [shapeCast_1a_a_apply, shapeCast_1a_a_apply,
    slice2_axis0_apply 1 _ slices_S2x25600_o1_0_S1x25600 (0 : Fin 1) l (1 : Fin 2) rfl,
    slice2_axis0_apply 0 _ slices_S2x25600_o0_0_S1x25600 (0 : Fin 1) l (0 : Fin 2) rfl]
  rfl

/-! ## The body's stored block at a lane -/

theorem zeros1 : (![0] : Fin 1 → Nat) = fun _ => 0 := funext fun a => by fin_cases a; rfl
theorem zeros2 : (![0, 0] : Fin 2 → Nat) = fun _ => 0 := funext fun a => by fin_cases a <;> rfl

/-- What the body leaves in the output block, as the three pieces above of the loaded blocks. -/
theorem out_eq (x0 x1 : FVec Ideal S6x25600 .bf16) (x2 x3 : FVec Ideal S1x25600 .bf16) (x4 x5 : FVec Ideal S10x6 .bf16)
    (x6 : FVec Ideal S10x1 .bf16) (x7 : FVec Ideal S10 .f32) (x8 : FVec Ideal S2x10 .bf16) (x9 : FVec Ideal S2 .f32) :
    out0_10 (F := Ideal) x0 x1 x2 x3 x4 x5 x6 x7 x8 x9
      = laneVec (logitVec x8 x9 (hidVec x4 x5 (extf .f32 x6 bitsLt_bf16_f32) x7 x0 x1 (extf .f32 x2 bitsLt_bf16_f32)))
          (logitVec x8 x9 (hidVec x4 x5 (extf .f32 x6 bitsLt_bf16_f32) x7 x1 x0 (extf .f32 x3 bitsLt_bf16_f32))) := by
  unfold out0_10
  rw [View.canon_unit_zero zeros1]
  simp only [View.ld_unit_zero (S := S6x25600) zeros2, View.ld_unit_zero (S := S1x25600) zeros2,
    View.ld_unit_zero (S := S10x6) zeros2, View.ld_unit_zero (S := S10x1) zeros2, View.ld_unit_zero (S := S10) zeros1,
    View.ld_unit_zero (S := S2x10) zeros2, View.ld_unit_zero (S := S2) zeros1]
  unfold k0_pay1 k0_pay9 k0_pay2 k0_pay3 k0_pay4 k0_pay5 k0_pay6 k0_pay7 k0_pay8
  simp only [shapeCast_self]
  rfl

/-- THE LANE: with the blocks' entries named by the edge's data, the stored value is the kernel's spelling of the edge. -/
theorem lane_eq (x0 x1 : FVec Ideal S6x25600 .bf16) (x2 x3 : FVec Ideal S1x25600 .bf16) (x4 x5 : FVec Ideal S10x6 .bf16)
    (x6 : FVec Ideal S10x1 .bf16) (x7 : FVec Ideal S10 .f32) (x8 : FVec Ideal S2x10 .bf16) (x9 : FVec Ideal S2 .f32)
    (l : Fin 25600)
    (W1 : (⟨2, ![13, 10]⟩ : Shape).Idx → EReal) (b1 : (⟨1, ![10]⟩ : Shape).Idx → EReal)
    (W2 : (⟨2, ![10, 2]⟩ : Shape).Idx → EReal) (b2 : (⟨1, ![2]⟩ : Shape).Idx → EReal)
    (a b : Fin 6 → EReal) (e e' : EReal)
    (h0 : ∀ k : Fin 6, x0 (ix2 k l) = a k) (h1 : ∀ k : Fin 6, x1 (ix2 k l) = b k)
    (h2 : x2 (ix2 (0 : Fin 1) l) = e) (h3 : x3 (ix2 (0 : Fin 1) l) = e')
    (h4 : ∀ (r : Fin 10) (k : Fin 6), x4 (ix2 r k) = W1 (ix2 (rowA k) r))
    (h5 : ∀ (r : Fin 10) (k : Fin 6), x5 (ix2 r k) = W1 (ix2 (rowB k) r))
    (h6 : ∀ r : Fin 10, x6 (ix2 r (0 : Fin 1)) = W1 (ix2 rowE r))
    (h7 : ∀ r : Fin 10, x7 (ix1 r) = b1 (ix1 r))
    (h8 : ∀ (c : Fin 2) (r : Fin 10), x8 (ix2 c r) = W2 (ix2 r c))
    (h9 : ∀ c : Fin 2, x9 (ix1 c) = b2 (ix1 c)) :
    out0_10 (F := Ideal) x0 x1 x2 x3 x4 x5 x6 x7 x8 x9 (ix1 l) = resK W1 b1 W2 b2 a b e e' := by
  rw [out_eq, laneVec_at]
  simp only [logitVec_at, hidVec_at, extf_apply, h0, h1, h2, h3, h4, h5, h6, h7, h8, h9]
  rfl

end Cert.KernelLane

end
-- ==== Proof.KernelHost.lean ====
/-
  The arrays the region stages, as @main's lines before it leave them, read at an index.

  The source and target rows are gathered from the node features at the edge's two endpoints and laid feature-major:
  entry (k, n) of the staged array is feature k of edge n's gathered row.  Both programs gather the same rows by the
  same index arithmetic, so the gathered arrays are named by the reference's own terms and never opened.  The
  attributes are laid as one row: entry (0, n) is edge n's attribute.  The weight blocks are the three row ranges of
  the first-layer matrix and the second-layer matrix, each transposed.  A change of float format is the identity on
  the extended reals.
-/
import proofs.«163541_j61598420959300_2_alg».proof.Proof.Gen.KernelIdeal.Frame
import proofs.«163541_j61598420959300_2_alg».proof.Proof.Gen.ReferenceIdeal.Read
import proofs.«163541_j61598420959300_2_alg».proof.Proof.EdgeSpec
import Idealize.ShloMosaic.Lib.ValueLayout
import Idealize.ShloMosaic.Lib.Pipeline.Value
import Idealize.ShloMosaic.Lib.ValueIdx
import Idealize.ShloMosaic.Lib.StableHlo.Run

noncomputable section

namespace Cert.KernelHost

open Cert.KernelIdeal Cert.KernelIdeal.Gen Idealize.ShloMosaic Idealize.ShloMosaic.TcCoe Idealize.ShloMosaic.ValueIdx
open Idealize.SL.Sem Cert.EdgeSpec

variable (m : (ℓ : Loc nD τ sig) → Buf (Elt Ideal) ℓ) (c : Dev nD)

/-- Edge n's gathered source row, feature-major. -/
theorem srcT_eq : (V m c main_v12 : S6x6400000.Idx → EReal)
    = transpose S6x6400000 [1, 0]
        (Cert.ReferenceIdeal.Read.val_main_v10 (F := Ideal) (m ((c : Thread nD τ).loc main_arg0)) (m ((c : Thread nD τ).loc main_arg1)))
        transposes_S6400000x6_S6x6400000_1_0 := by
  show StableHlo.after hostOps0 (fun b => m (c, b)) (Proc.devRef .tc main_v12) = _
  after_results
  rfl

theorem src_at (k : Fin 6) (n : Fin 6400000) :
    (V m c main_v12 : S6x6400000.Idx → EReal) (ix2 k n)
      = Cert.ReferenceIdeal.Read.val_main_v10 (F := Ideal) (m ((c : Thread nD τ).loc main_arg0)) (m ((c : Thread nD τ).loc main_arg1)) (ix2 n k) := by
  rw [srcT_eq]
  exact transpose_ix2_apply _ transposes_S6400000x6_S6x6400000_1_0 k n

set_option maxHeartbeats 4000000 in
/-- Edge n's gathered target row, feature-major. -/
theorem tgtT_eq : (V m c main_v20 : S6x6400000.Idx → EReal)
    = transpose S6x6400000 [1, 0]
        (Cert.ReferenceIdeal.Read.val_main_v17 (F := Ideal) (m ((c : Thread nD τ).loc main_arg0)) (m ((c : Thread nD τ).loc main_arg1)))
        transposes_S6400000x6_S6x6400000_1_0 := by
  show StableHlo.after hostOps0 (fun b => m (c, b)) (Proc.devRef .tc main_v20) = _
  after_results_simp <;> rfl

theorem tgt_at (k : Fin 6) (n : Fin 6400000) :
    (V m c main_v20 : S6x6400000.Idx → EReal) (ix2 k n)
      = Cert.ReferenceIdeal.Read.val_main_v17 (F := Ideal) (m ((c : Thread nD τ).loc main_arg0)) (m ((c : Thread nD τ).loc main_arg1)) (ix2 n k) := by
  rw [tgtT_eq]
  exact transpose_ix2_apply _ transposes_S6400000x6_S6x6400000_1_0 k n

set_option maxHeartbeats 4000000 in
/-- The forward attribute as one row. -/
theorem eaT_eq : (V m c main_v22 : S1x6400000.Idx → EReal)
    = transpose S1x6400000 [1, 0] (truncf (F := Ideal) .bf16 (m ((c : Thread nD τ).loc main_arg2) : FVec Ideal S6400000x1 .f32) bitsLt_bf16_f32)
        transposes_S6400000x1_S1x6400000_1_0 := by
  show StableHlo.after hostOps0 (fun b => m (c, b)) (Proc.devRef .tc main_v22) = _
  after_results_simp <;> rfl

theorem ea_at (n : Fin 6400000) :
    (V m c main_v22 : S1x6400000.Idx → EReal) (ix2 (0 : Fin 1) n)
      = (m ((c : Thread nD τ).loc main_arg2) : S6400000x1.Idx → EReal) (ix2 n (0 : Fin 1)) := by
  rw [eaT_eq]
  exact transpose_ix2_apply _ transposes_S6400000x1_S1x6400000_1_0 (0 : Fin 1) n

set_option maxHeartbeats 4000000 in
/-- The reversed edge's attribute as one row. -/
theorem eaT'_eq : (V m c main_v24 : S1x6400000.Idx → EReal)
    = transpose S1x6400000 [1, 0] (truncf (F := Ideal) .bf16 (m ((c : Thread nD τ).loc main_arg3) : FVec Ideal S6400000x1 .f32) bitsLt_bf16_f32)
        transposes_S6400000x1_S1x6400000_1_0 := by
  show StableHlo.after hostOps0 (fun b => m (c, b)) (Proc.devRef .tc main_v24) = _
  after_results_simp <;> rfl

theorem ea'_at (n : Fin 6400000) :
    (V m c main_v24 : S1x6400000.Idx → EReal) (ix2 (0 : Fin 1) n)
      = (m ((c : Thread nD τ).loc main_arg3) : S6400000x1.Idx → EReal) (ix2 n (0 : Fin 1)) := by
  rw [eaT'_eq]
  exact transpose_ix2_apply _ transposes_S6400000x1_S1x6400000_1_0 (0 : Fin 1) n

set_option maxHeartbeats 4000000 in
/-- The first-layer rows that act on the source features, transposed. -/
theorem w1s_eq : (V m c main_v27 : S10x6.Idx → EReal)
    = truncf (F := Ideal) .bf16 (transpose S10x6 [1, 0]
        (extractStridedSlice S6x10 ![0, 0] (m ((c : Thread nD τ).loc main_arg4) : FVec Ideal S13x10 .f32) slices_S13x10_S6x10_0_0)
        transposes_S6x10_S10x6_1_0) bitsLt_bf16_f32 := by
  show StableHlo.after hostOps0 (fun b => m (c, b)) (Proc.devRef .tc main_v27) = _
  after_results_simp <;> rfl

theorem w1s_at (r : Fin 10) (k : Fin 6) :
    (V m c main_v27 : S10x6.Idx → EReal) (ix2 r k)
      = (m ((c : Thread nD τ).loc main_arg4) : S13x10.Idx → EReal) (ix2 (rowA k) r) := by
  rw [w1s_eq, truncf_apply]
  refine (transpose_ix2_apply _ transposes_S6x10_S10x6_1_0 r k).trans ?_
  exact slice2_axis0_apply 0 _ slices_S13x10_S6x10_0_0 k r (rowA k) (Nat.zero_add _).symm

set_option maxHeartbeats 4000000 in
/-- The rows that act on the target features. -/
theorem w1t_eq : (V m c main_v30 : S10x6.Idx → EReal)
    = truncf (F := Ideal) .bf16 (transpose S10x6 [1, 0]
        (extractStridedSlice S6x10 ![6, 0] (m ((c : Thread nD τ).loc main_arg4) : FVec Ideal S13x10 .f32) slices_S13x10_S6x10_6_0)
        transposes_S6x10_S10x6_1_0) bitsLt_bf16_f32 := by
  show StableHlo.after hostOps0 (fun b => m (c, b)) (Proc.devRef .tc main_v30) = _
  after_results_simp <;> rfl

theorem w1t_at (r : Fin 10) (k : Fin 6) :
    (V m c main_v30 : S10x6.Idx → EReal) (ix2 r k)
      = (m ((c : Thread nD τ).loc main_arg4) : S13x10.Idx → EReal) (ix2 (rowB k) r) := by
  rw [w1t_eq, truncf_apply]
  refine (transpose_ix2_apply _ transposes_S6x10_S10x6_1_0 r k).trans ?_
  exact slice2_axis0_apply 6 _ slices_S13x10_S6x10_6_0 k r (rowB k) rfl

set_option maxHeartbeats 4000000 in
/-- The row that acts on the attribute, as a column. -/
theorem w1e_eq : (V m c main_v33 : S10x1.Idx → EReal)
    = truncf (F := Ideal) .bf16 (transpose S10x1 [1, 0]
        (extractStridedSlice S1x10 ![12, 0] (m ((c : Thread nD τ).loc main_arg4) : FVec Ideal S13x10 .f32) slices_S13x10_S1x10_12_0)
        transposes_S1x10_S10x1_1_0) bitsLt_bf16_f32 := by
  show StableHlo.after hostOps0 (fun b => m (c, b)) (Proc.devRef .tc main_v33) = _
  after_results_simp <;> rfl

theorem w1e_at (r : Fin 10) :
    (V m c main_v33 : S10x1.Idx → EReal) (ix2 r (0 : Fin 1))
      = (m ((c : Thread nD τ).loc main_arg4) : S13x10.Idx → EReal) (ix2 rowE r) := by
  rw [w1e_eq, truncf_apply]
  refine (transpose_ix2_apply _ transposes_S1x10_S10x1_1_0 r (0 : Fin 1)).trans ?_
  exact slice2_axis0_apply 12 _ slices_S13x10_S1x10_12_0 (0 : Fin 1) r rowE rfl

set_option maxHeartbeats 4000000 in
/-- The second-layer matrix, transposed. -/
theorem w2T_eq : (V m c main_v35 : S2x10.Idx → EReal)
    = truncf (F := Ideal) .bf16 (transpose S2x10 [1, 0] (m ((c : Thread nD τ).loc main_arg6) : FVec Ideal S10x2 .f32) transposes_S10x2_S2x10_1_0)
        bitsLt_bf16_f32 := by
  show StableHlo.after hostOps0 (fun b => m (c, b)) (Proc.devRef .tc main_v35) = _
  after_results_simp <;> rfl

theorem w2T_at (o : Fin 2) (r : Fin 10) :
    (V m c main_v35 : S2x10.Idx → EReal) (ix2 o r)
      = (m ((c : Thread nD τ).loc main_arg6) : S10x2.Idx → EReal) (ix2 r o) := by
  rw [w2T_eq]
  exact transpose_ix2_apply _ transposes_S10x2_S2x10_1_0 o r

/-! ## The kernel's result, edge by edge -/

/-- Edge n's probability in the kernel's spelling, of @main's argument arrays: the gathered rows of its two endpoints,
    its two attributes, the two layers' weights and biases. -/
def edgeAt (n : Fin 6400000) : EReal :=
  resK (m ((c : Thread nD τ).loc main_arg4) : S13x10.Idx → EReal) (m ((c : Thread nD τ).loc main_arg5) : S10.Idx → EReal)
    (m ((c : Thread nD τ).loc main_arg6) : S10x2.Idx → EReal) (m ((c : Thread nD τ).loc main_arg7) : S2.Idx → EReal)
    (fun k : Fin 6 => Cert.ReferenceIdeal.Read.val_main_v10 (F := Ideal) (m ((c : Thread nD τ).loc main_arg0)) (m ((c : Thread nD τ).loc main_arg1)) (ix2 n k))
    (fun k : Fin 6 => Cert.ReferenceIdeal.Read.val_main_v17 (F := Ideal) (m ((c : Thread nD τ).loc main_arg0)) (m ((c : Thread nD τ).loc main_arg1)) (ix2 n k))
    ((m ((c : Thread nD τ).loc main_arg2) : S6400000x1.Idx → EReal) (ix2 n (0 : Fin 1)))
    ((m ((c : Thread nD τ).loc main_arg3) : S6400000x1.Idx → EReal) (ix2 n (0 : Fin 1)))

/-- The whole result vector. -/
def edgeArr : S6400000.Idx → EReal := fun i => edgeAt m c (i 0)

end Cert.KernelHost

end
-- ==== Proof.KernelBlocks.lean ====
/-
  From blocks to the array: what the kernel's result vector holds after the region.

  The region runs over a grid of 250 points.  At point t the body sees lanes 25600 t … 25600 t + 25599 of the four
  arrays laid along the edge axis (the source rows, the target rows, the two attribute rows) and the whole of the six
  weight and bias arrays, and it writes back entries 25600 t … 25600 t + 25599 of the result vector.  So lane l of the
  block written at point t is the body's value on edge n = 25600 t + l, which is the kernel's spelling of that edge;
  and since 250 × 25600 = 6,400,000 the written blocks fill the vector, entry n by the point ⌊n / 25600⌋.  Hence the
  vector ends holding, edge by edge, the kernel's spelling of the edge.
-/
import proofs.«163541_j61598420959300_2_alg».proof.Proof.Gen.KernelIdeal.Frame
import proofs.«163541_j61598420959300_2_alg».proof.Proof.KernelLane
import proofs.«163541_j61598420959300_2_alg».proof.Proof.KernelHost
import Idealize.ShloMosaic.Lib.Pipeline.Value
import Idealize.ShloMosaic.Lib.ValueIdx

noncomputable section

namespace Cert.KernelBlocks

open Cert.KernelIdeal Cert.KernelIdeal.Gen Idealize.ShloMosaic Idealize.ShloMosaic.TcCoe Idealize.ShloMosaic.ValueIdx Idealize.SL.Sem
open Cert.EdgeSpec

variable (m : (ℓ : Loc nD τ sig) → Buf (Elt Ideal) ℓ)

/-! ## The printed index maps over the 250 grid points -/

/-- The five windows over the edge axis step one block per grid point, on their last axis; the feature axis stays put. -/
theorem idxMoving : ∀ t : Fin cfg0.N, win0_10.index t (0 : Fin 1) = t.val
    ∧ win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The six weight and bias windows are their whole arrays at every grid point. -/
theorem idxFixed : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-! ## The input blocks read at an entry

Lane l of the block at grid point t is edge n = 25600 t + l; a weight block's entry is the array's entry. -/

theorem srcBlock (c : Dev nD) (t : Fin cfg0.N) (k : Fin 6) (l : Fin 25600) (n : Fin 6400000) (hn : n.val = t.val * 25600 + l.val) :
    (iblk m c 0 t : S6x25600.Idx → EReal) (ix2 k l) = (V m c main_v12 : S6x6400000.Idx → EReal) (ix2 k n) := by
  obtain ⟨-, e0, e1, -⟩ := idxMoving t
  unfold iblk
  show V m c main_v12 (((cfg0.win 0).blk t).view.emb (ix2 k l)) = V m c main_v12 (ix2 k n)
  refine congrArg (V m c main_v12) ?_
  funext a
  apply Fin.ext
  match a with
  | ⟨0, _⟩ => show win0_0.index t (0 : Fin 2) * 6 + 1 * k.val = k.val; omega
  | ⟨1, _⟩ => show win0_0.index t (1 : Fin 2) * 25600 + 1 * l.val = n.val; omega

theorem tgtBlock (c : Dev nD) (t : Fin cfg0.N) (k : Fin 6) (l : Fin 25600) (n : Fin 6400000) (hn : n.val = t.val * 25600 + l.val) :
    (iblk m c 1 t : S6x25600.Idx → EReal) (ix2 k l) = (V m c main_v20 : S6x6400000.Idx → EReal) (ix2 k n) := by
  obtain ⟨-, -, -, e0, e1, -⟩ := idxMoving t
  unfold iblk
  show V m c main_v20 (((cfg0.win 1).blk t).view.emb (ix2 k l)) = V m c main_v20 (ix2 k n)
  refine congrArg (V m c main_v20) ?_
  funext a
  apply Fin.ext
  match a with
  | ⟨0, _⟩ => show win0_1.index t (0 : Fin 2) * 6 + 1 * k.val = k.val; omega
  | ⟨1, _⟩ => show win0_1.index t (1 : Fin 2) * 25600 + 1 * l.val = n.val; omega

theorem attrBlock (c : Dev nD) (t : Fin cfg0.N) (l : Fin 25600) (n : Fin 6400000) (hn : n.val = t.val * 25600 + l.val) :
    (iblk m c 2 t : S1x25600.Idx → EReal) (ix2 (0 : Fin 1) l) = (V m c main_v22 : S1x6400000.Idx → EReal) (ix2 (0 : Fin 1) n) := by
  obtain ⟨-, -, -, -, -, e0, e1, -⟩ := idxMoving t
  unfold iblk
  show V m c main_v22 (((cfg0.win 2).blk t).view.emb (ix2 (0 : Fin 1) l)) = V m c main_v22 (ix2 (0 : Fin 1) n)
  refine congrArg (V m c main_v22) ?_
  funext a
  apply Fin.ext
  match a with
  | ⟨0, _⟩ => show win0_2.index t (0 : Fin 2) * 1 + 1 * 0 = 0; omega
  | ⟨1, _⟩ => show win0_2.index t (1 : Fin 2) * 25600 + 1 * l.val = n.val; omega

theorem attrBlock' (c : Dev nD) (t : Fin cfg0.N) (l : Fin 25600) (n : Fin 6400000) (hn : n.val = t.val * 25600 + l.val) :
    (iblk m c 3 t : S1x25600.Idx → EReal) (ix2 (0 : Fin 1) l) = (V m c main_v24 : S1x6400000.Idx → EReal) (ix2 (0 : Fin 1) n) := by
  obtain ⟨-, -, -, -, -, -, -, e0, e1⟩ := idxMoving t
  unfold iblk
  show V m c main_v24 (((cfg0.win 3).blk t).view.emb (ix2 (0 : Fin 1) l)) = V m c main_v24 (ix2 (0 : Fin 1) n)
  refine congrArg (V m c main_v24) ?_
  funext a
  apply Fin.ext
  match a with
  | ⟨0, _⟩ => show win0_3.index t (0 : Fin 2) * 1 + 1 * 0 = 0; omega
  | ⟨1, _⟩ => show win0_3.index t (1 : Fin 2) * 25600 + 1 * l.val = n.val; omega

theorem w1sBlock (c : Dev nD) (t : Fin cfg0.N) (r : Fin 10) (k : Fin 6) :
    (iblk m c 4 t : S10x6.Idx → EReal) (ix2 r k) = (V m c main_v27 : S10x6.Idx → EReal) (ix2 r k) := by
  obtain ⟨e0, e1, -⟩ := idxFixed t
  unfold iblk
  show V m c main_v27 (((cfg0.win 4).blk t).view.emb (ix2 r k)) = V m c main_v27 (ix2 r k)
  refine congrArg (V m c main_v27) ?_
  funext a
  apply Fin.ext
  match a with
  | ⟨0, _⟩ => show win0_4.index t (0 : Fin 2) * 10 + 1 * r.val = r.val; omega
  | ⟨1, _⟩ => show win0_4.index t (1 : Fin 2) * 6 + 1 * k.val = k.val; omega

theorem w1tBlock (c : Dev nD) (t : Fin cfg0.N) (r : Fin 10) (k : Fin 6) :
    (iblk m c 5 t : S10x6.Idx → EReal) (ix2 r k) = (V m c main_v30 : S10x6.Idx → EReal) (ix2 r k) := by
  obtain ⟨-, -, e0, e1, -⟩ := idxFixed t
  unfold iblk
  show V m c main_v30 (((cfg0.win 5).blk t).view.emb (ix2 r k)) = V m c main_v30 (ix2 r k)
  refine congrArg (V m c main_v30) ?_
  funext a
  apply Fin.ext
  match a with
  | ⟨0, _⟩ => show win0_5.index t (0 : Fin 2) * 10 + 1 * r.val = r.val; omega
  | ⟨1, _⟩ => show win0_5.index t (1 : Fin 2) * 6 + 1 * k.val = k.val; omega

theorem w1eBlock (c : Dev nD) (t : Fin cfg0.N) (r : Fin 10) :
    (iblk m c 6 t : S10x1.Idx → EReal) (ix2 r (0 : Fin 1)) = (V m c main_v33 : S10x1.Idx → EReal) (ix2 r (0 : Fin 1)) := by
  obtain ⟨-, -, -, -, e0, e1, -⟩ := idxFixed t
  unfold iblk
  show V m c main_v33 (((cfg0.win 6).blk t).view.emb (ix2 r (0 : Fin 1))) = V m c main_v33 (ix2 r (0 : Fin 1))
  refine congrArg (V m c main_v33) ?_
  funext a
  apply Fin.ext
  match a with
  | ⟨0, _⟩ => show win0_6.index t (0 : Fin 2) * 10 + 1 * r.val = r.val; omega
  | ⟨1, _⟩ => show win0_6.index t (1 : Fin 2) * 1 + 1 * 0 = 0; omega

theorem b1Block (c : Dev nD) (t : Fin cfg0.N) (r : Fin 10) :
    (iblk m c 7 t : S10.Idx → EReal) (ix1 r) = (V m c main_arg5 : S10.Idx → EReal) (ix1 r) := by
  obtain ⟨-, -, -, -, -, -, e0, -⟩ := idxFixed t
  unfold iblk
  show V m c main_arg5 (((cfg0.win 7).blk t).view.emb (ix1 r)) = V m c main_arg5 (ix1 r)
  refine congrArg (V m c main_arg5) ?_
  funext a
  apply Fin.ext
  match a with
  | ⟨0, _⟩ => show win0_7.index t (0 : Fin 1) * 10 + 1 * r.val = r.val; omega

theorem w2Block (c : Dev nD) (t : Fin cfg0.N) (o : Fin 2) (r : Fin 10) :
    (iblk m c 8 t : S2x10.Idx → EReal) (ix2 o r) = (V m c main_v35 : S2x10.Idx → EReal) (ix2 o r) := by
  obtain ⟨-, -, -, -, -, -, -, e0, e1, -⟩ := idxFixed t
  unfold iblk
  show V m c main_v35 (((cfg0.win 8).blk t).view.emb (ix2 o r)) = V m c main_v35 (ix2 o r)
  refine congrArg (V m c main_v35) ?_
  funext a
  apply Fin.ext
  match a with
  | ⟨0, _⟩ => show win0_8.index t (0 : Fin 2) * 2 + 1 * o.val = o.val; omega
  | ⟨1, _⟩ => show win0_8.index t (1 : Fin 2) * 10 + 1 * r.val = r.val; omega

theorem b2Block (c : Dev nD) (t : Fin cfg0.N) (o : Fin 2) :
    (iblk m c 9 t : S2.Idx → EReal) (ix1 o) = (V m c main_arg7 : S2.Idx → EReal) (ix1 o) := by
  obtain ⟨-, -, -, -, -, -, -, -, -, e0⟩ := idxFixed t
  unfold iblk
  show V m c main_arg7 (((cfg0.win 9).blk t).view.emb (ix1 o)) = V m c main_arg7 (ix1 o)
  refine congrArg (V m c main_arg7) ?_
  funext a
  apply Fin.ext
  match a with
  | ⟨0, _⟩ => show win0_9.index t (0 : Fin 1) * 2 + 1 * o.val = o.val; omega

/-! ## What a grid point writes back -/

/-- Lane l of the block the body leaves at grid point t is the kernel's spelling of edge n = 25600 t + l: the ten blocks'
    entries the lane reads are that edge's gathered rows and attributes and the two layers' weights and biases. -/
theorem laneAt (c : Dev nD) (t : Fin cfg0.N) (l : Fin 25600) (n : Fin 6400000) (hn : n.val = t.val * 25600 + l.val) :
    out0_10 (F := Ideal) (iblk m c 0 t) (iblk m c 1 t) (iblk m c 2 t) (iblk m c 3 t) (iblk m c 4 t) (iblk m c 5 t)
        (iblk m c 6 t) (iblk m c 7 t) (iblk m c 8 t) (iblk m c 9 t) (ix1 l)
      = Cert.KernelHost.edgeAt m c n :=
  Cert.KernelLane.lane_eq (iblk m c 0 t) (iblk m c 1 t) (iblk m c 2 t) (iblk m c 3 t) (iblk m c 4 t) (iblk m c 5 t)
    (iblk m c 6 t) (iblk m c 7 t) (iblk m c 8 t) (iblk m c 9 t) l
    (m ((c : Thread nD τ).loc main_arg4) : S13x10.Idx → EReal) (m ((c : Thread nD τ).loc main_arg5) : S10.Idx → EReal)
    (m ((c : Thread nD τ).loc main_arg6) : S10x2.Idx → EReal) (m ((c : Thread nD τ).loc main_arg7) : S2.Idx → EReal)
    (fun k : Fin 6 => Cert.ReferenceIdeal.Read.val_main_v10 (F := Ideal) (m ((c : Thread nD τ).loc main_arg0)) (m ((c : Thread nD τ).loc main_arg1)) (ix2 n k))
    (fun k : Fin 6 => Cert.ReferenceIdeal.Read.val_main_v17 (F := Ideal) (m ((c : Thread nD τ).loc main_arg0)) (m ((c : Thread nD τ).loc main_arg1)) (ix2 n k))
    ((m ((c : Thread nD τ).loc main_arg2) : S6400000x1.Idx → EReal) (ix2 n (0 : Fin 1)))
    ((m ((c : Thread nD τ).loc main_arg3) : S6400000x1.Idx → EReal) (ix2 n (0 : Fin 1)))
    (fun k => (srcBlock m c t k l n hn).trans (Cert.KernelHost.src_at m c k n))
    (fun k => (tgtBlock m c t k l n hn).trans (Cert.KernelHost.tgt_at m c k n))
    ((attrBlock m c t l n hn).trans (Cert.KernelHost.ea_at m c n))
    ((attrBlock' m c t l n hn).trans (Cert.KernelHost.ea'_at m c n))
    (fun r k => (w1sBlock m c t r k).trans (Cert.KernelHost.w1s_at m c r k))
    (fun r k => (w1tBlock m c t r k).trans (Cert.KernelHost.w1t_at m c r k))
    (fun r => (w1eBlock m c t r).trans (Cert.KernelHost.w1e_at m c r))
    (fun r => (b1Block m c t r).trans (congrFun (V_main_arg5 m c) (ix1 r)))
    (fun o r => (w2Block m c t o r).trans (Cert.KernelHost.w2T_at m c o r))
    (fun o => (b2Block m c t o).trans (congrFun (V_main_arg7 m c) (ix1 o)))

/-- The block grid point t writes back is block t of the edge-by-edge result vector. -/
theorem flushedEq (c : Dev nD) (t : Fin cfg0.N) :
    (dats m 0 c).flushed 10 t = ((cfg0.win 10).blk t).view.read (Elt Ideal) (Cert.KernelHost.edgeArr m c) := by
  have ht : t.val < 250 := by
    have h : t.val < cfg0.N := t.isLt
    have hN : cfg0.N = 250 := N_0
    omega
  obtain ⟨e10, -⟩ := idxMoving t
  show (cfg0.win 10).cut (grid0.coords t) ((dats m 0 c).after 10 t) = _
  rw [after0_10]
  refine funext fun (y : S25600.Idx) => ?_
  obtain ⟨l, rfl⟩ : ∃ l : Fin 25600, y = ix1 l := ⟨y 0, eq_ix1 y⟩
  have hl : l.val < 25600 := l.isLt
  refine (laneAt m c t l ⟨t.val * 25600 + l.val, by omega⟩ rfl).trans ?_
  rw [View.read_apply]
  show Cert.KernelHost.edgeAt m c _ = Cert.KernelHost.edgeAt m c ((((cfg0.win 10).blk t).view.emb (ix1 l)) 0)
  refine congrArg (Cert.KernelHost.edgeAt m c) (Fin.ext ?_)
  show t.val * 25600 + l.val = win0_10.index t (0 : Fin 1) * 25600 + 1 * l.val
  omega

/-! ## The blocks tile the vector -/

/-- An index of the result vector lies in grid point t's block iff it lies in the block's range of 25600 entries. -/
theorem memBlock (t : Fin cfg0.N) (i : S6400000.Idx) :
    i ∈ ((cfg0.win 10).blk t).view.set ↔ ∀ a : Fin 1, win0_10.index t a * S25600.size a ≤ (i a).val ∧ (i a).val < win0_10.index t a * S25600.size a + S25600.size a := by
  show i ∈ ((View.whole main_v36).slice (win0_10.rect t)).set ↔ _
  rw [View.set_slice_whole, Rect.mem_set_unit]
  exact Iff.rfl

/-- Every index of the 6,400,000-entry vector lies in the block of grid point ⌊index / 25600⌋, which writes back:
    250 blocks of 25600 entries fill the vector. -/
theorem covered (i : S6400000.Idx) :
    ∃ t : Fin cfg0.N, (cfg0.win 10).flush t = true ∧ i ∈ ((cfg0.win 10).blk t).view.set := by
  have hi : (i 0).val < 6400000 := (i 0).isLt
  obtain ⟨t, ht⟩ : ∃ t : Fin cfg0.N, t.val = (i 0).val / 25600 :=
    ⟨⟨(i 0).val / 25600, by rw [show cfg0.N = 250 from N_0]; omega⟩, rfl⟩
  obtain ⟨e10, -⟩ := idxMoving t
  refine ⟨t, flush0_10 t, ?_⟩
  rw [memBlock]
  intro a
  match a with
  | ⟨0, _⟩ =>
    show win0_10.index t (0 : Fin 1) * 25600 ≤ (i 0).val ∧ (i 0).val < win0_10.index t (0 : Fin 1) * 25600 + 25600
    omega

/-! ## The result vector after the region -/

theorem final10 (c : Dev nD) : ((dats m 0 c).arrAt 10 cfg0.N : S6400000.Idx → EReal) = Cert.KernelHost.edgeArr m c :=
  (dats m 0 c).arrAt_eq_of_cover 10 (Cert.KernelHost.edgeArr m c) (fun t _ => flushedEq m c t) covered

end Cert.KernelBlocks

end
-- ==== Proof.KernelTail.lean ====
/-
  The idealized kernel's run, read at its result.

  After the region the output array holds the edge vector; @main's one remaining line recasts that vector of
  6,400,000 entries as a column, moving no element.  The argument arrays end as launched: the lines after the region
  write none of them, the region stages them without writing back, and the lines before it write only their own
  results.
-/
import proofs.«163541_j61598420959300_2_alg».proof.Proof.Gen.KernelIdeal.Frame
import proofs.«163541_j61598420959300_2_alg».proof.Proof.KernelHost
import Idealize.ShloMosaic.Lib.StableHlo.Run

noncomputable section

namespace Cert.KernelTail

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The kernel's result: the edge vector as a column. -/
def resultCol (c : Dev nD) : Buf (Elt Ideal) ((c.tc : Thread nD τ).loc main_v37) :=
  shapeCast S6400000x1 (Cert.KernelHost.edgeArr m c) shapeCasts_S6400000_S6400000x1

/-- What the line after the region leaves in the result buffer, given the output array's final contents. -/
theorem tail_eq (c : Dev nD)
    (hfin : ((dats m 0 c).arrAt 10 cfg0.N : S6400000.Idx → EReal) = Cert.KernelHost.edgeArr m c) :
    Pipeline.afterTail₀ cfgs (dats m) 0 (V0 m) [hostOps1] c main_v37 = resultCol m c := by
  unfold Pipeline.afterTail₀
  show StableHlo.after hostOps1 _ (Proc.devRef .tc main_v37) = _
  after_results
  have e : Pipeline.withArrays (cfgs 0).spec c (V0 m c) (fun w => (dats m 0 c).arrAt w (cfgs 0).N) (Proc.devRef .tc main_v36)
      = Cert.KernelHost.edgeArr m c :=
    (Pipeline.withArrays_arr spec0 launch0.win.arr_inj c (V0 m c) (fun w => (dats m 0 c).arrAt w (cfgs 0).N) 10).trans hfin
  rw [e]
  rfl

/-- THE RUN: every weakly fair execution ends with the result buffer at the edge column and the arguments as launched. -/
theorem run_value (hfin : ∀ c : Dev nD, ((dats m 0 c).arrAt 10 cfg0.N : S6400000.Idx → EReal) = Cert.KernelHost.edgeArr m c) :
    θ_run defs (onTc (τ := τ) (main (F := Ideal))) ⟨m, fun _ => 0, ρ⟩ (fun r => ∀ c : Dev nD,
      r.2.mem ((c.tc : Thread nD τ).loc main_v37) = resultCol m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v37 (Pipeline.mem_restRefs_of main_v37 (by decide) (by decide))).trans (tail_eq m c (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 7).trans (((dats m 0 c).arrAt_in 7 rfl _).trans ((A_eq m c 7).trans (V_main_arg5 m c))),
      ((h c).2 main_arg6 (Pipeline.mem_restRefs_of main_arg6 (by decide) (by decide))).trans (W_main_arg6 m (dats m) c),
      ((h c).1 9).trans (((dats m 0 c).arrAt_in 9 rfl _).trans ((A_eq m c 9).trans (V_main_arg7 m c)))⟩)
    (run_main m ρ)

end Cert.KernelTail

end
-- ==== Proof.RefEdge.lean ====
/-
  The reference program read at one edge.

  The reference computes, for each of the 6 400 000 edges at once, the probability of class 1 of a symmetric edge
  classifier.  Read at edge n, every array operation of the program becomes a scalar expression in the elements of its
  operands at row n: the two concatenations give the thirteen-entry feature vectors of the edge and of the reversed
  edge (source row, target row, attribute), the two matrix products with the bias additions and the clipping at zero
  give the hidden units and the output logits of each direction, half their sum gives the symmetrised logits, the
  maximum over the two classes (taken from −∞, and once more against −∞) gives the shift, and the exponentials of the
  shifted logits divided by zero plus their sum give the softmax, whose second entry is the result.  The two gathered
  rows of node features are not read any further: they enter as they are.

  Each lemma below reads one stage at row n and states it in the shared spelling of the edge classifier; the last one
  chains them into the reference's result on the edge.
-/
import proofs.«163541_j61598420959300_2_alg».proof.Proof.Gen.ReferenceIdeal.Read
import proofs.«163541_j61598420959300_2_alg».proof.Proof.EdgeSpec
import Idealize.ShloMosaic.Lib.Pipeline.Value
import Idealize.ShloMosaic.Lib.ValueIdx
import Idealize.ShloMosaic.PureOps.Reduce
import Idealize.ShloMosaic.PureOps.Ideal.Laws

noncomputable section

namespace Cert.RefEdge

open Cert.ReferenceIdeal Cert.ReferenceIdeal.Read Idealize.ShloMosaic Idealize.ShloMosaic.ValueIdx
open Cert.EdgeSpec

variable (x0 : (⟨S100000x6, .f32⟩ : BufTy).Contents (Elt Ideal)) (x1 : (⟨S2x6400000, .i32⟩ : BufTy).Contents (Elt Ideal))
  (x2 x3 : (⟨S6400000x1, .f32⟩ : BufTy).Contents (Elt Ideal)) (x4 : (⟨S13x10, .f32⟩ : BufTy).Contents (Elt Ideal))
  (x5 : (⟨S10, .f32⟩ : BufTy).Contents (Elt Ideal)) (x6 : (⟨S10x2, .f32⟩ : BufTy).Contents (Elt Ideal))
  (x7 : (⟨S2, .f32⟩ : BufTy).Contents (Elt Ideal))

/-- The source row and the target row of edge n: the two gathered node-feature rows, kept as they are. -/
abbrev rowA (n : Fin 6400000) : Fin 6 → EReal := fun k => val_main_v10 (F := Ideal) x0 x1 (ix2 n k)
abbrev rowB (n : Fin 6400000) : Fin 6 → EReal := fun k => val_main_v17 (F := Ideal) x0 x1 (ix2 n k)

/-! ## The concatenated feature vectors

Column j of the joined array comes from the piece whose span of columns holds j: columns 0–5 from the first piece,
6–11 from the second, column 12 from the third. -/

/-- Row n of the forward concatenation (source, target, attribute) is the feature vector of the edge. -/
theorem v18_at (n : Fin 6400000) (j : Fin 13) :
    val_main_v18 (F := Ideal) x0 x1 x2 (ix2 n j)
      = feat (rowA x0 x1 n) (rowB x0 x1 n) (x2 (ix2 n (0 : Fin 1))) j := by
  unfold val_main_v18 feat
  by_cases h6 : j.val < 6
  · rw [dif_pos h6]
    refine concatenate_apply_piece (1 : Fin 2) _ _ (ix2 n j) 0 ?_ S6400000x6 (val_main_v10 (F := Ideal) x0 x1) ?_ rfl 0 ?_
      (ix2 n ⟨j.val, h6⟩) ?_ ?_
    · show (0 : Nat) < 3; omega
    · rfl
    · rfl
    · intro b hb
      match b with
      | ⟨0, _⟩ => rfl
      | ⟨1, _⟩ => exact absurd rfl hb
    · show 0 + j.val = j.val
      omega
  · rw [dif_neg h6]
    by_cases h12 : j.val < 12
    · rw [dif_pos h12]
      refine concatenate_apply_piece (1 : Fin 2) _ _ (ix2 n j) 1 ?_ S6400000x6 (val_main_v17 (F := Ideal) x0 x1) ?_ rfl 6 ?_
        (ix2 n ⟨j.val - 6, by omega⟩) ?_ ?_
      · show (1 : Nat) < 3; omega
      · rfl
      · rfl
      · intro b hb
        match b with
        | ⟨0, _⟩ => rfl
        | ⟨1, _⟩ => exact absurd rfl hb
      · show 6 + (j.val - 6) = j.val
        omega
    · rw [dif_neg h12]
      refine concatenate_apply_piece (1 : Fin 2) _ _ (ix2 n j) 2 ?_ S6400000x1 x2 ?_ rfl 12 ?_
        (ix2 n (0 : Fin 1)) ?_ ?_
      · show (2 : Nat) < 3; omega
      · rfl
      · rfl
      · intro b hb
        match b with
        | ⟨0, _⟩ => rfl
        | ⟨1, _⟩ => exact absurd rfl hb
      · show 12 + 0 = j.val
        have := j.isLt
        omega

/-- Row n of the reversed concatenation (target, source, reversed attribute) is the feature vector of the reversed edge. -/
theorem v19_at (n : Fin 6400000) (j : Fin 13) :
    val_main_v19 (F := Ideal) x0 x1 x3 (ix2 n j)
      = feat (rowB x0 x1 n) (rowA x0 x1 n) (x3 (ix2 n (0 : Fin 1))) j := by
  unfold val_main_v19 feat
  by_cases h6 : j.val < 6
  · rw [dif_pos h6]
    refine concatenate_apply_piece (1 : Fin 2) _ _ (ix2 n j) 0 ?_ S6400000x6 (val_main_v17 (F := Ideal) x0 x1) ?_ rfl 0 ?_
      (ix2 n ⟨j.val, h6⟩) ?_ ?_
    · show (0 : Nat) < 3; omega
    · rfl
    · rfl
    · intro b hb
      match b with
      | ⟨0, _⟩ => rfl
      | ⟨1, _⟩ => exact absurd rfl hb
    · show 0 + j.val = j.val
      omega
  · rw [dif_neg h6]
    by_cases h12 : j.val < 12
    · rw [dif_pos h12]
      refine concatenate_apply_piece (1 : Fin 2) _ _ (ix2 n j) 1 ?_ S6400000x6 (val_main_v10 (F := Ideal) x0 x1) ?_ rfl 6 ?_
        (ix2 n ⟨j.val - 6, by omega⟩) ?_ ?_
      · show (1 : Nat) < 3; omega
      · rfl
      · rfl
      · intro b hb
        match b with
        | ⟨0, _⟩ => rfl
        | ⟨1, _⟩ => exact absurd rfl hb
      · show 6 + (j.val - 6) = j.val
        omega
    · rw [dif_neg h12]
      refine concatenate_apply_piece (1 : Fin 2) _ _ (ix2 n j) 2 ?_ S6400000x1 x3 ?_ rfl 12 ?_
        (ix2 n (0 : Fin 1)) ?_ ?_
      · show (2 : Nat) < 3; omega
      · rfl
      · rfl
      · intro b hb
        match b with
        | ⟨0, _⟩ => rfl
        | ⟨1, _⟩ => exact absurd rfl hb
      · show 12 + 0 = j.val
        have := j.isLt
        omega

/-! ## The hidden layer -/

theorem lidx_v20 (n : Fin 6400000) (r : Fin 10) (k : Fin 13) : lidx_main_v20 (ix2 n r) k = ix2 n k := by
  funext a; match a with | ⟨0, _⟩ => rfl | ⟨1, _⟩ => rfl
theorem ridx_v20 (n : Fin 6400000) (r : Fin 10) (k : Fin 13) : ridx_main_v20 (ix2 n r) k = ix2 k r := by
  funext a; match a with | ⟨0, _⟩ => rfl | ⟨1, _⟩ => rfl
/-- The broadcast bias reads the bias vector at the column. -/
theorem v22_at (n : Fin 6400000) (r : Fin 10) : val_main_v22 (F := Ideal) x5 (ix2 n r) = x5 (ix1 r) := by
  rw [val_main_v22_apply, val_main_v21_apply]
  exact congrArg x5 (funext fun a => match a with | ⟨0, _⟩ => rfl)
/-- Hidden unit r of this direction of edge n: the thirteen-term product, plus the bias, clipped below at zero. -/
theorem v24_at (n : Fin 6400000) (r : Fin 10) :
    val_main_v24 (F := Ideal) x0 x1 x2 x4 x5 (ix2 n r)
      = hidR x4 x5 (feat (rowA x0 x1 n) (rowB x0 x1 n) (x2 (ix2 n (0 : Fin 1)))) r := by
  rw [val_main_v24_apply, val_main_v23_apply, val_main_v20_apply, v22_at, val_main_call0_v0_apply,
    val_main_call0_cst_apply]
  unfold hidR
  refine congrArg (fun s : EReal => max (s + x5 (ix1 r)) zeroW) (Finset.sum_congr rfl fun k _ => ?_)
  rw [lidx_v20, ridx_v20, v18_at]

theorem lidx_v29 (n : Fin 6400000) (r : Fin 10) (k : Fin 13) : lidx_main_v29 (ix2 n r) k = ix2 n k := by
  funext a; match a with | ⟨0, _⟩ => rfl | ⟨1, _⟩ => rfl
theorem ridx_v29 (n : Fin 6400000) (r : Fin 10) (k : Fin 13) : ridx_main_v29 (ix2 n r) k = ix2 k r := by
  funext a; match a with | ⟨0, _⟩ => rfl | ⟨1, _⟩ => rfl
/-- The broadcast bias reads the bias vector at the column. -/
theorem v31_at (n : Fin 6400000) (r : Fin 10) : val_main_v31 (F := Ideal) x5 (ix2 n r) = x5 (ix1 r) := by
  rw [val_main_v31_apply, val_main_v30_apply]
  exact congrArg x5 (funext fun a => match a with | ⟨0, _⟩ => rfl)
/-- Hidden unit r of this direction of edge n: the thirteen-term product, plus the bias, clipped below at zero. -/
theorem v33_at (n : Fin 6400000) (r : Fin 10) :
    val_main_v33 (F := Ideal) x0 x1 x3 x4 x5 (ix2 n r)
      = hidR x4 x5 (feat (rowB x0 x1 n) (rowA x0 x1 n) (x3 (ix2 n (0 : Fin 1)))) r := by
  rw [val_main_v33_apply, val_main_v32_apply, val_main_v29_apply, v31_at, val_main_call1_v0_apply,
    val_main_call1_cst_apply]
  unfold hidR
  refine congrArg (fun s : EReal => max (s + x5 (ix1 r)) zeroW) (Finset.sum_congr rfl fun k _ => ?_)
  rw [lidx_v29, ridx_v29, v19_at]

/-! ## The output layer and the symmetrised logits -/

theorem lidx_v25 (n : Fin 6400000) (c : Fin 2) (k : Fin 10) : lidx_main_v25 (ix2 n c) k = ix2 n k := by
  funext a; match a with | ⟨0, _⟩ => rfl | ⟨1, _⟩ => rfl
theorem ridx_v25 (n : Fin 6400000) (c : Fin 2) (k : Fin 10) : ridx_main_v25 (ix2 n c) k = ix2 k c := by
  funext a; match a with | ⟨0, _⟩ => rfl | ⟨1, _⟩ => rfl
/-- The broadcast output bias reads the bias vector at the class. -/
theorem v27_at (n : Fin 6400000) (c : Fin 2) : val_main_v27 (F := Ideal) x7 (ix2 n c) = x7 (ix1 c) := by
  rw [val_main_v27_apply, val_main_v26_apply]
  exact congrArg x7 (funext fun a => match a with | ⟨0, _⟩ => rfl)
/-- Logit c of this direction of edge n: the ten-term product over the hidden units, plus the bias. -/
theorem v28_at (n : Fin 6400000) (c : Fin 2) :
    val_main_v28 (F := Ideal) x0 x1 x2 x4 x5 x6 x7 (ix2 n c)
      = outR x4 x5 x6 x7 (feat (rowA x0 x1 n) (rowB x0 x1 n) (x2 (ix2 n (0 : Fin 1)))) c := by
  rw [val_main_v28_apply, val_main_v25_apply, v27_at]
  unfold outR
  refine congrArg (fun s : EReal => s + x7 (ix1 c)) (Finset.sum_congr rfl fun k _ => ?_)
  rw [lidx_v25, ridx_v25, v24_at]

theorem lidx_v34 (n : Fin 6400000) (c : Fin 2) (k : Fin 10) : lidx_main_v34 (ix2 n c) k = ix2 n k := by
  funext a; match a with | ⟨0, _⟩ => rfl | ⟨1, _⟩ => rfl
theorem ridx_v34 (n : Fin 6400000) (c : Fin 2) (k : Fin 10) : ridx_main_v34 (ix2 n c) k = ix2 k c := by
  funext a; match a with | ⟨0, _⟩ => rfl | ⟨1, _⟩ => rfl
/-- The broadcast output bias reads the bias vector at the class. -/
theorem v36_at (n : Fin 6400000) (c : Fin 2) : val_main_v36 (F := Ideal) x7 (ix2 n c) = x7 (ix1 c) := by
  rw [val_main_v36_apply, val_main_v35_apply]
  exact congrArg x7 (funext fun a => match a with | ⟨0, _⟩ => rfl)
/-- Logit c of this direction of edge n: the ten-term product over the hidden units, plus the bias. -/
theorem v37_at (n : Fin 6400000) (c : Fin 2) :
    val_main_v37 (F := Ideal) x0 x1 x3 x4 x5 x6 x7 (ix2 n c)
      = outR x4 x5 x6 x7 (feat (rowB x0 x1 n) (rowA x0 x1 n) (x3 (ix2 n (0 : Fin 1)))) c := by
  rw [val_main_v37_apply, val_main_v34_apply, v36_at]
  unfold outR
  refine congrArg (fun s : EReal => s + x7 (ix1 c)) (Finset.sum_congr rfl fun k _ => ?_)
  rw [lidx_v34, ridx_v34, v33_at]

/-- The two symmetrised logits of edge n, as the reference spells them. -/
abbrev zAt (n : Fin 6400000) : Fin 2 → EReal :=
  zR x4 x5 x6 x7 (feat (rowA x0 x1 n) (rowB x0 x1 n) (x2 (ix2 n (0 : Fin 1))))
    (feat (rowB x0 x1 n) (rowA x0 x1 n) (x3 (ix2 n (0 : Fin 1))))

/-- Half the sum of the two directions' logits. -/
theorem v40_at (n : Fin 6400000) (c : Fin 2) :
    val_main_v40 (F := Ideal) x0 x1 x2 x3 x4 x5 x6 x7 (ix2 n c) = zAt x0 x1 x2 x3 x4 x5 x6 x7 n c := by
  rw [val_main_v40_apply, val_main_v38_apply, v28_at, v37_at, val_main_v39_apply, val_main_cst_apply]
  rfl

/-! ## The shift of the softmax

The maximum over the class axis is a fold of max from −∞ over the two classes; the program takes the maximum of that
with −∞ once more. -/

/-- The index of the two-column array over row n with class c inserted is (n, c). -/
theorem lift_at (h : S6400000x2.Reduces [1] S6400000) (n : Fin 6400000) (c : Fin 2) : h.lift (ix1 n) c = ix2 n c := by
  funext a
  apply Fin.ext
  show h.liftVal (ix1 n) c.val a = _
  unfold Shape.Reduces.liftVal
  match a with
  | ⟨0, _⟩ => rfl
  | ⟨1, _⟩ => rfl

theorem v41_at (n : Fin 6400000) :
    val_main_v41 (F := Ideal) x0 x1 x2 x3 x4 x5 x6 x7 (ix1 n)
      = (Finset.univ : Finset (Fin 2)).fold max ninfW (zAt x0 x1 x2 x3 x4 x5 x6 x7 n) := by
  unfold val_main_v41
  have h : S6400000x2.Reduces [1] S6400000 := by decide
  rw [Host.reduce_eq_fold_single _ _ _ _ h]
  have hf : (val_main_v40 (F := Ideal) x0 x1 x2 x3 x4 x5 x6 x7 ∘ h.lift (ix1 n)) = zAt x0 x1 x2 x3 x4 x5 x6 x7 n := by
    funext c
    exact (congrArg (val_main_v40 (F := Ideal) x0 x1 x2 x3 x4 x5 x6 x7) (lift_at h n c)).trans
      (v40_at x0 x1 x2 x3 x4 x5 x6 x7 n c)
  rw [hf]
  rfl

theorem v43_at (n : Fin 6400000) :
    val_main_v43 (F := Ideal) x0 x1 x2 x3 x4 x5 x6 x7 (ix1 n) = shiftR (zAt x0 x1 x2 x3 x4 x5 x6 x7 n) := by
  rw [val_main_v43_apply, val_main_v42_apply, val_main_cst_4_apply, v41_at]
  rfl

/-! ## The softmax entry -/

/-- The shift broadcast back over the class axis. -/
theorem v45_at (n : Fin 6400000) (c : Fin 2) :
    val_main_v45 (F := Ideal) x0 x1 x2 x3 x4 x5 x6 x7 (ix2 n c) = shiftR (zAt x0 x1 x2 x3 x4 x5 x6 x7 n) := by
  rw [val_main_v45_apply, val_main_v44_apply]
  have e : idx_main_v44 (idx_main_v45 (ix2 n c)) = ix1 n := funext fun a => match a with | ⟨0, _⟩ => rfl
  rw [e, v43_at]

/-- The exponential of a shifted logit. -/
theorem v47_at (n : Fin 6400000) (c : Fin 2) :
    val_main_v47 (F := Ideal) x0 x1 x2 x3 x4 x5 x6 x7 (ix2 n c)
      = Ideal.exp (zAt x0 x1 x2 x3 x4 x5 x6 x7 n c - shiftR (zAt x0 x1 x2 x3 x4 x5 x6 x7 n)) := by
  rw [val_main_v47_apply, val_main_v46_apply, v40_at, v45_at]
  rfl

/-- The denominator: zero plus the sum of the two exponentials, broadcast back over the class axis. -/
theorem v50_at (n : Fin 6400000) (c : Fin 2) :
    val_main_v50 (F := Ideal) x0 x1 x2 x3 x4 x5 x6 x7 (ix2 n c)
      = zeroW + ∑ c' : Fin 2, Ideal.exp (zAt x0 x1 x2 x3 x4 x5 x6 x7 n c' - shiftR (zAt x0 x1 x2 x3 x4 x5 x6 x7 n)) := by
  rw [val_main_v50_apply, val_main_v49_apply]
  have e : idx_main_v49 (idx_main_v50 (ix2 n c)) = ix1 n := funext fun a => match a with | ⟨0, _⟩ => rfl
  rw [e, val_main_v48_apply, val_main_cst_5_apply]
  refine congrArg (fun s : EReal => zeroW + s) (Finset.sum_congr rfl fun k _ => ?_)
  have e' : idx_main_v48 (ix1 n) k = ix2 n k := funext fun a => match a with | ⟨0, _⟩ => rfl | ⟨1, _⟩ => rfl
  rw [e', v47_at]

end Cert.RefEdge

namespace Cert.RefEdge

open Cert.ReferenceIdeal Cert.ReferenceIdeal.Read Idealize.ShloMosaic Idealize.ShloMosaic.ValueIdx in
/-- The reference program's result at edge n is the reference's spelling of the edge classifier on the two gathered
    rows and the two attributes of the edge. -/
theorem ref_at (x0 : (⟨S100000x6, .f32⟩ : BufTy).Contents (Elt Ideal)) (x1 : (⟨S2x6400000, .i32⟩ : BufTy).Contents (Elt Ideal))
    (x2 x3 : (⟨S6400000x1, .f32⟩ : BufTy).Contents (Elt Ideal)) (x4 : (⟨S13x10, .f32⟩ : BufTy).Contents (Elt Ideal))
    (x5 : (⟨S10, .f32⟩ : BufTy).Contents (Elt Ideal)) (x6 : (⟨S10x2, .f32⟩ : BufTy).Contents (Elt Ideal))
    (x7 : (⟨S2, .f32⟩ : BufTy).Contents (Elt Ideal)) (n : Fin 6400000) :
    val_main_v52 (F := Ideal) x0 x1 x2 x3 x4 x5 x6 x7 (ix2 n (0 : Fin 1))
      = Cert.EdgeSpec.resR x4 x5 x6 x7
          (fun k : Fin 6 => val_main_v10 (F := Ideal) x0 x1 (ix2 n k))
          (fun k : Fin 6 => val_main_v17 (F := Ideal) x0 x1 (ix2 n k))
          (x2 (ix2 n (0 : Fin 1))) (x3 (ix2 n (0 : Fin 1))) := by
  rw [val_main_v52_apply]
  have e : idx_main_v52 (ix2 n (0 : Fin 1)) = ix2 n (1 : Fin 2) :=
    funext fun a => match a with | ⟨0, _⟩ => rfl | ⟨1, _⟩ => rfl
  rw [e, val_main_v51_apply, v47_at, v50_at]
  rfl

end Cert.RefEdge
end
-- ==== Proof.EdgeLaw.lean ====
/-
  The two spellings of one edge of the symmetric edge classifier agree on real inputs.

  Three facts are put together.

  * Regrouping.  A sum over the thirteen rows of W1 is the sum over rows 0–5, plus the sum over rows 6–11, plus
    row 12; on the concatenated feature vector (a, b, e) these three parts read a, b and e.  Together with the
    commutativity of the product this turns the reference's hidden unit, output logit and symmetrised logit into
    the kernel's.  Nothing here needs the values to be finite: only + and * being commutative and associative.

  * Closure.  The real numbers inside the extended reals are closed under +, *, max and finite sums, and the
    words 0 and 1/2 are real; so the symmetrised logits of real weights and real features are real.

  * The softmax of two real logits.  For real z0, z1 and any real shift m,
        e^(z1 − m) / (0 + (e^(z0 − m) + e^(z1 − m))) = 1 / (1 + e^(−(z1 − z0))),
    because e^(z0 − m) / e^(z1 − m) = e^(−(z1 − z0)).  The reference's shift, the running maximum from −∞ over the
    two logits taken once more against −∞, is the real number max z0 z1.
-/
import proofs.«163541_j61598420959300_2_alg».proof.Proof.EdgeSpec
import Idealize.ShloMosaic.PureOps.Ideal.Laws

noncomputable section

namespace Cert.EdgeLaw

open Cert.EdgeSpec Idealize.ShloMosaic Idealize.ShloMosaic.ValueIdx

/-! ## Regrouping -/

/-- A sum over the thirteen rows is the sum over the source rows, plus the sum over the target rows, plus the
    attribute row. -/
theorem sum_rows {M : Type*} [AddCommMonoid M] (g : Fin 13 → M) :
    ∑ j : Fin 13, g j = ((∑ k : Fin 6, g (rowA k)) + ∑ k : Fin 6, g (rowB k)) + g rowE := by
  rw [show (∑ j : Fin 13, g j) = ∑ j : Fin (12 + 1), g j from rfl, Fin.sum_univ_castSucc]
  rw [show (∑ i : Fin 12, g (Fin.castSucc i)) = ∑ i : Fin (6 + 6), g (Fin.castSucc i) from rfl, Fin.sum_univ_add]
  rfl

/-- The concatenated feature vector reads the source features on rows 0–5 … -/
theorem feat_rowA (a b : Fin 6 → EReal) (e : EReal) (k : Fin 6) : feat a b e (rowA k) = a k := by
  unfold feat
  rw [dif_pos (show (rowA k).val < 6 from k.isLt)]
  rfl

/-- … the target features on rows 6–11 … -/
theorem feat_rowB (a b : Fin 6 → EReal) (e : EReal) (k : Fin 6) : feat a b e (rowB k) = b k := by
  have hk := k.isLt
  unfold feat
  rw [dif_neg (show ¬ (rowB k).val < 6 from by show ¬ 6 + k.val < 6; omega),
    dif_pos (show (rowB k).val < 12 from by show 6 + k.val < 12; omega)]
  congr 1
  apply Fin.ext
  show 6 + k.val - 6 = k.val
  omega

/-- … and the attribute on row 12. -/
theorem feat_rowE (a b : Fin 6 → EReal) (e : EReal) : feat a b e rowE = e := by
  unfold feat
  rw [dif_neg (show ¬ rowE.val < 6 from by show ¬ 12 < 6; omega),
    dif_neg (show ¬ rowE.val < 12 from by show ¬ 12 < 12; omega)]

variable (W1 : (⟨2, ![13, 10]⟩ : Shape).Idx → EReal) (b1 : (⟨1, ![10]⟩ : Shape).Idx → EReal)
  (W2 : (⟨2, ![10, 2]⟩ : Shape).Idx → EReal) (b2 : (⟨1, ![2]⟩ : Shape).Idx → EReal)

/-- The reference's hidden unit on (a, b, e) is the kernel's. -/
theorem hidR_feat (a b : Fin 6 → EReal) (e : EReal) (r : Fin 10) :
    hidR W1 b1 (feat a b e) r = hidK W1 b1 a b e r := by
  unfold hidR hidK
  rw [sum_rows (fun j => feat a b e j * W1 (ix2 j r))]
  have hA : (∑ k : Fin 6, feat a b e (rowA k) * W1 (ix2 (rowA k) r)) = ∑ k : Fin 6, W1 (ix2 (rowA k) r) * a k :=
    Finset.sum_congr rfl (fun k _ => by rw [feat_rowA, mul_comm])
  have hB : (∑ k : Fin 6, feat a b e (rowB k) * W1 (ix2 (rowB k) r)) = ∑ k : Fin 6, W1 (ix2 (rowB k) r) * b k :=
    Finset.sum_congr rfl (fun k _ => by rw [feat_rowB, mul_comm])
  have hE : feat a b e rowE * W1 (ix2 rowE r) = W1 (ix2 rowE r) * e := by rw [feat_rowE, mul_comm]
  rw [hA, hB, hE]

/-- The reference's output logit on (a, b, e) is the kernel's. -/
theorem outR_feat (a b : Fin 6 → EReal) (e : EReal) (c : Fin 2) :
    outR W1 b1 W2 b2 (feat a b e) c = outK W1 b1 W2 b2 a b e c := by
  unfold outR outK
  congr 1
  exact Finset.sum_congr rfl (fun r _ => by rw [hidR_feat, mul_comm])

/-- The regrouping law: the reference's symmetrised logit is the kernel's. -/
theorem zR_eq_zK (a b : Fin 6 → EReal) (e e' : EReal) (c : Fin 2) :
    zR W1 b1 W2 b2 (feat a b e) (feat b a e') c = zK W1 b1 W2 b2 a b e e' c := by
  unfold zR zK
  rw [outR_feat, outR_feat]

/-! ## Real numbers among the extended reals -/

theorem isReal_coe (r : ℝ) : IsReal (r : EReal) := ⟨r, rfl⟩

theorem isReal_add {x y : EReal} (hx : IsReal x) (hy : IsReal y) : IsReal (x + y) := by
  obtain ⟨r, rfl⟩ := hx
  obtain ⟨s, rfl⟩ := hy
  exact ⟨r + s, (EReal.coe_add r s).symm⟩

theorem isReal_mul {x y : EReal} (hx : IsReal x) (hy : IsReal y) : IsReal (x * y) := by
  obtain ⟨r, rfl⟩ := hx
  obtain ⟨s, rfl⟩ := hy
  exact ⟨r * s, (EReal.coe_mul r s).symm⟩

/-- The coercion of the reals is monotone, so it carries max to max. -/
theorem coe_max (r s : ℝ) : ((max r s : ℝ) : EReal) = max (r : EReal) (s : EReal) :=
  EReal.coe_strictMono.monotone.map_max

theorem isReal_max {x y : EReal} (hx : IsReal x) (hy : IsReal y) : IsReal (max x y) := by
  obtain ⟨r, rfl⟩ := hx
  obtain ⟨s, rfl⟩ := hy
  exact ⟨Max.max r s, (coe_max r s).symm⟩

theorem isReal_sum {n : Nat} (f : Fin n → EReal) (hf : ∀ i, IsReal (f i)) : IsReal (∑ i : Fin n, f i) :=
  Finset.sum_induction f IsReal (fun _ _ hx hy => isReal_add hx hy) ⟨0, EReal.coe_zero.symm⟩ (fun i _ => hf i)

theorem zeroW_eq : zeroW = ((0 : ℝ) : EReal) := by
  show Ideal.ofBits .f32 0x00000000#32 = ((0 : ℝ) : EReal)
  rw [Ideal.ofBits_zero_f32, EReal.coe_zero]

theorem halfW_eq : halfW = (((1 / 2 : ℝ)) : EReal) := by
  show Ideal.ofBits .f32 0x3F000000#32 = (((1 / 2 : ℝ)) : EReal)
  simp [Ideal.ofBits, Ideal.ieee, -EReal.coe_mul]; norm_num

theorem ninfW_eq : ninfW = ⊥ := by
  show Ideal.ofBits .f32 0xFF800000#32 = ⊥
  simp [Ideal.ofBits, Ideal.ieee]

theorem isReal_zeroW : IsReal zeroW := ⟨0, zeroW_eq⟩
theorem isReal_halfW : IsReal halfW := ⟨1 / 2, halfW_eq⟩

section Closure
variable (a b : Fin 6 → EReal) (e e' : EReal)
  (hW1 : ∀ i, IsReal (W1 i)) (hb1 : ∀ i, IsReal (b1 i)) (hW2 : ∀ i, IsReal (W2 i)) (hb2 : ∀ i, IsReal (b2 i))

include hW1 hb1 in
theorem hidK_isReal (ha : ∀ k, IsReal (a k)) (hb : ∀ k, IsReal (b k)) (he : IsReal e) (r : Fin 10) :
    IsReal (hidK W1 b1 a b e r) := by
  unfold hidK
  exact isReal_max
    (isReal_add
      (isReal_add
        (isReal_add (isReal_sum _ (fun k => isReal_mul (hW1 _) (ha k))) (isReal_sum _ (fun k => isReal_mul (hW1 _) (hb k))))
        (isReal_mul (hW1 _) he))
      (hb1 _))
    isReal_zeroW

include hW1 hb1 hW2 hb2 in
theorem outK_isReal (ha : ∀ k, IsReal (a k)) (hb : ∀ k, IsReal (b k)) (he : IsReal e) (c : Fin 2) :
    IsReal (outK W1 b1 W2 b2 a b e c) := by
  unfold outK
  exact isReal_add (isReal_sum _ (fun r => isReal_mul (hW2 _) (hidK_isReal W1 b1 a b e hW1 hb1 ha hb he r))) (hb2 _)

end Closure

/-- The symmetrised logits of real weights and real features are real. -/
theorem zK_isReal (a b : Fin 6 → EReal) (e e' : EReal) (c : Fin 2)
    (hW1 : ∀ i, IsReal (W1 i)) (hb1 : ∀ i, IsReal (b1 i)) (hW2 : ∀ i, IsReal (W2 i)) (hb2 : ∀ i, IsReal (b2 i))
    (ha : ∀ k, IsReal (a k)) (hb : ∀ k, IsReal (b k)) (he : IsReal e) (he' : IsReal e') :
    IsReal (zK W1 b1 W2 b2 a b e e' c) := by
  unfold zK
  exact isReal_mul
    (isReal_add (outK_isReal W1 b1 W2 b2 a b e hW1 hb1 hW2 hb2 ha hb he c)
      (outK_isReal W1 b1 W2 b2 b a e' hW1 hb1 hW2 hb2 hb ha he' c))
    isReal_halfW

/-! ## The softmax of two real logits -/

/-- The reference's shift is the larger logit. -/
theorem shiftR_eq (z : Fin 2 → EReal) : shiftR z = max (z 0) (z 1) := by
  unfold shiftR
  rw [ninfW_eq, show (Finset.univ : Finset (Fin 2)) = {0, 1} from by decide,
    Finset.fold_insert (by decide), Finset.fold_singleton, max_bot_right, max_eq_right bot_le]

/-- In the reals: e^(r1 − m) · (1 / (e^(r0 − m) + e^(r1 − m))) = 1 / (1 + e^(−(r1 − r0))). -/
theorem real_softmax (r0 r1 m : ℝ) :
    Real.exp (r1 - m) * (1 / (Real.exp (r0 - m) + Real.exp (r1 - m))) = (1 + Real.exp (-(r1 - r0)))⁻¹ := by
  have h : Real.exp (-(r1 - r0)) = Real.exp (r0 - m) / Real.exp (r1 - m) := by
    rw [← Real.exp_sub]; congr 1; ring
  have h0 := Real.exp_pos (r0 - m)
  have h1 := Real.exp_pos (r1 - m)
  rw [h]
  field_simp
  ring

theorem softmax1_eq_logistic (z : Fin 2 → EReal) (hz : ∀ c, IsReal (z c)) : softmax1 z = Ideal.logistic (z 1 - z 0) := by
  obtain ⟨r0, h0⟩ := hz 0
  obtain ⟨r1, h1⟩ := hz 1
  unfold softmax1
  rw [shiftR_eq, Fin.sum_univ_two, h0, h1, ← coe_max, ← EReal.coe_sub, ← EReal.coe_sub, ← EReal.coe_sub,
    Ideal.exp_coe, Ideal.exp_coe, zeroW_eq, ← EReal.coe_add, ← EReal.coe_add, zero_add, Ideal.logistic_coe]
  have hpos : Real.exp (r0 - Max.max r0 r1) + Real.exp (r1 - Max.max r0 r1) ≠ 0 :=
    (add_pos (Real.exp_pos _) (Real.exp_pos _)).ne'
  rw [Ideal.div_coe hpos, ← EReal.coe_mul, real_softmax]

/-! ## The assembly -/

/-- On real weights and real features the reference's result on an edge is the kernel's. -/
theorem resR_eq_resK (a b : Fin 6 → EReal) (e e' : EReal)
    (hW1 : ∀ i, IsReal (W1 i)) (hb1 : ∀ i, IsReal (b1 i)) (hW2 : ∀ i, IsReal (W2 i)) (hb2 : ∀ i, IsReal (b2 i))
    (ha : ∀ k, IsReal (a k)) (hb : ∀ k, IsReal (b k)) (he : IsReal e) (he' : IsReal e') :
    resR W1 b1 W2 b2 a b e e' = resK W1 b1 W2 b2 a b e e' := by
  unfold resR resK
  have hz : (zR W1 b1 W2 b2 (feat a b e) (feat b a e')) = zK W1 b1 W2 b2 a b e e' :=
    funext (fun c => zR_eq_zK W1 b1 W2 b2 a b e e' c)
  rw [hz]
  exact softmax1_eq_logistic _ (fun c => zK_isReal W1 b1 W2 b2 a b e e' c hW1 hb1 hW2 hb2 ha hb he he')

end Cert.EdgeLaw

end
-- ==== Proof.FiniteInputs.lean ====
/-
  Finiteness of the float inputs.

  The precondition computes, for each of the seven float inputs x, the conjunction over all entries of the test
  |x i| < +∞, and then the conjunction of the seven results; it is assumed to come out true.  A conjunction that is
  true has every conjunct true, so each entry of each float input satisfies |x i| < +∞.  On the extended reals the
  absolute value is max x (−x), which is +∞ at both infinities; hence an entry passing the test is neither +∞ nor −∞,
  that is, it is a real number.
-/
import proofs.«163541_j61598420959300_2_alg».proof.Pre_finite_inputs
import proofs.«163541_j61598420959300_2_alg».proof.Proof.EdgeSpec
import Idealize.ShloMosaic.Lib.ReduceAll
import Idealize.ShloMosaic.PureOps.Ideal
import Idealize.ShloMosaic.PureOps.Ideal.Laws
import Idealize.ShloMosaic.Lib.ValueIdx

noncomputable section

namespace Cert.FiniteInputs

open Cert.Pre_finite_inputs Idealize.ShloMosaic

/-- The rank-0 shape has exactly one index: there is no axis to give a coordinate on. -/
instance subsingleton_scalar_idx : Subsingleton S_.Idx := ⟨fun a b => funext fun d => d.elim0⟩

/-- The f32 word 0x7F800000 denotes +∞. -/
theorem pinf_eq_top : Ideal.ofBits .f32 0x7F800000#32 = (⊤ : EReal) := by
  simp [Ideal.ofBits, Ideal.ieee]

/-- A strict comparison that answers 1 is the order's strict inequality. -/
theorem lt_of_cmp_olt (a b : EReal) (h : Ideal.cmp .olt a b = 1#1) : a < b := by
  by_contra hn
  simp [Ideal.cmp, hn] at h

/-- An extended real whose absolute value max x (−x) is strictly below +∞ is a real number: at either infinity the
    maximum is +∞. -/
theorem isReal_of_abs_lt_top (x : EReal) (h : max x (-x) < ⊤) : Cert.EdgeSpec.IsReal x := by
  induction x using EReal.rec with
  | bot => simp at h
  | coe r => exact ⟨r, rfl⟩
  | top => simp at h

/-- One array of the precondition: if the conjunction over all entries of |x i| < +∞ is true, every entry is real. -/
theorem all_real {S : Shape} {axes : List (Fin S.rank)} (x : FVec Ideal S .f32)
    (hb : S_.BroadcastsInDim S (![] : Fin 0 → Fin S.rank)) (hr : S.ReducesTo axes S_) (hu : 0 < S_.numel) (j : S_.Idx)
    (e : Host.reduce IntOp.andi
          (cmpf .olt (Host.absf x) (broadcastInDim S ![] hb (constant (F := Ideal) S_ .f32 0x7F800000#32)))
          (constantI S_ 1 1#1) hr hu j = 1#1) (i : S.Idx) : Cert.EdgeSpec.IsReal (x i) := by
  have h := Host.reduce_andi_all _ _ hr hu j e i
  have h' : Ideal.cmp .olt (max (x i) (-(x i))) (Ideal.ofBits .f32 0x7F800000#32) = 1#1 := h
  have hlt := lt_of_cmp_olt _ _ h'
  rw [pinf_eq_top] at hlt
  exact isReal_of_abs_lt_top _ hlt

theorem reals_of_pre [Cert.Pre_finite_inputs.Facts]
    (x0 : FVec Ideal S100000x6 .f32) (x1 : IVec S2x6400000 32) (x2 x3 : FVec Ideal S6400000x1 .f32)
    (x4 : FVec Ideal S13x10 .f32) (x5 : FVec Ideal S10 .f32) (x6 : FVec Ideal S10x2 .f32) (x7 : FVec Ideal S2 .f32)
    (h : Cert.Pre_finite_inputs.fn (F := Ideal) x0 x1 x2 x3 x4 x5 x6 x7 = fun _ => 1#1) :
    (∀ i, Cert.EdgeSpec.IsReal (x0 i)) ∧ (∀ i, Cert.EdgeSpec.IsReal (x2 i)) ∧ (∀ i, Cert.EdgeSpec.IsReal (x3 i))
      ∧ (∀ i, Cert.EdgeSpec.IsReal (x4 i)) ∧ (∀ i, Cert.EdgeSpec.IsReal (x5 i)) ∧ (∀ i, Cert.EdgeSpec.IsReal (x6 i))
      ∧ (∀ i, Cert.EdgeSpec.IsReal (x7 i)) := by
  have e := congrFun h ValueIdx.ix0
  dsimp only [fn, fn_part1, andi] at e
  simp only [IntOp.andi_eq_one] at e
  obtain ⟨⟨⟨⟨⟨⟨h0, h2⟩, h3⟩, h4⟩, h5⟩, h6⟩, h7⟩ := e
  exact ⟨all_real x0 _ _ _ _ h0, all_real x2 _ _ _ _ h2, all_real x3 _ _ _ _ h3, all_real x4 _ _ _ _ h4,
    all_real x5 _ _ _ _ h5, all_real x6 _ _ _ _ h6, all_real x7 _ _ _ _ h7⟩

end Cert.FiniteInputs

end
-- ==== Proof.Bridge.lean ====
/-
  The two programs' results are one column.

  At edge n the reference's last stage is the reference's spelling of the edge, and the kernel's result column at
  (n, 0) is the kernel's spelling of the same edge's data: the same gathered endpoint rows, the same two attributes,
  the same weights.  Under the precondition every float input entry is a real number; a gathered row's entries are
  entries of the node features, so they are real too; and on real data the two spellings agree — the thirteen-term sum
  regrouped by role, the shifted two-way softmax's second entry equal to the logistic function of the logit difference.
-/
import proofs.«163541_j61598420959300_2_alg».proof.Proof.KernelHost
import proofs.«163541_j61598420959300_2_alg».proof.Proof.KernelLane
import proofs.«163541_j61598420959300_2_alg».proof.Proof.RefEdge
import proofs.«163541_j61598420959300_2_alg».proof.Proof.EdgeLaw
import proofs.«163541_j61598420959300_2_alg».proof.Proof.FiniteInputs

noncomputable section

namespace Cert.Bridge

open Cert.KernelIdeal Cert.KernelIdeal.Gen Idealize.ShloMosaic Idealize.ShloMosaic.TcCoe Idealize.ShloMosaic.ValueIdx
open Idealize.SL.Sem Cert.EdgeSpec

/-- A gathered row's entries are entries of the operand: real when the operand's all are. -/
theorem gathered_src_real (x0 : FVec Ideal S100000x6 .f32) (x1 : IVec S2x6400000 32) (h : ∀ i, IsReal (x0 i)) (j : S6400000x6.Idx) :
    IsReal (Cert.ReferenceIdeal.Read.val_main_v10 (F := Ideal) x0 x1 j) := by
  unfold Cert.ReferenceIdeal.Read.val_main_v10 Host.gather
  exact h _

theorem gathered_tgt_real (x0 : FVec Ideal S100000x6 .f32) (x1 : IVec S2x6400000 32) (h : ∀ i, IsReal (x0 i)) (j : S6400000x6.Idx) :
    IsReal (Cert.ReferenceIdeal.Read.val_main_v17 (F := Ideal) x0 x1 j) := by
  unfold Cert.ReferenceIdeal.Read.val_main_v17 Host.gather
  exact h _

variable (m : (ℓ : Loc nD τ sig) → Buf (Elt Ideal) ℓ) (c : Dev nD)

/-- THE BRIDGE: under the precondition the reference's last stage, of the kernel's argument arrays, is the kernel's
    result column. -/
theorem ref_eq_kernel [Cert.Pre_finite_inputs.Facts]
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      = fun _ => 1#1) :
    Cert.ReferenceIdeal.Read.val_main_v52 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      = shapeCast S6400000x1 (Cert.KernelHost.edgeArr m c) shapeCasts_S6400000_S6400000x1 := by
  obtain ⟨r0, r2, r3, r4, r5, r6, r7⟩ := Cert.FiniteInputs.reals_of_pre _ _ _ _ _ _ _ _ hpre
  funext j
  obtain ⟨n, u, rfl⟩ : ∃ (n : Fin 6400000) (u : Fin 1), j = ix2 n u := ⟨j 0, j 1, eq_ix2 j⟩
  obtain rfl : u = 0 := Subsingleton.elim _ _
  rw [Cert.RefEdge.ref_at, Cert.KernelLane.shapeCast_a_a1_apply]
  show _ = Cert.KernelHost.edgeAt m c n
  unfold Cert.KernelHost.edgeAt
  exact Cert.EdgeLaw.resR_eq_resK _ _ _ _ _ _ _ _ r4 r5 r6 r7
    (fun k => gathered_src_real _ _ r0 _) (fun k => gathered_tgt_real _ _ r0 _) (r2 _) (r3 _)

end Cert.Bridge

end
-- ==== Proof.lean ====
/-
  A symmetric edge classifier on a graph of 100,000 nodes and 6,400,000 edges: a Pallas kernel against its jnp reference,
  equal as extended reals wherever every float input is finite.

  For an edge with endpoint rows a, b (six node features each, gathered by the edge's two indices) and attributes e, e',
  a two-layer perceptron maps the thirteen features (a, b, e) to two logits, and (b, a, e') to two more; the edge's
  logits z 0, z 1 are half their sums, and the result is the probability of class 1.

  The reference concatenates the features, multiplies by the 13 × 10 matrix in one product, and takes the second entry of
  the softmax of (z 0, z 1), shifted by the larger logit.  The kernel lays the per-edge arrays feature-major, walks the
  edges in 250 blocks of 25,600 lanes, multiplies the three row ranges of the matrix separately (two six-term products and
  one outer product), and applies the logistic function to z 1 − z 0; one line after the call recasts the result vector as
  a column.  Changes of float format are the identity on the extended reals, and both programs gather the same rows by the
  same index arithmetic, so the gathered rows are one array on both sides.

  The proof: the kernel's stored value at a lane is its spelling of the lane's edge (the products as plain sums, the
  broadcasts read at an entry); the blocks tile the result vector, so after the region it holds that spelling edge by
  edge, and the recast column after the last line; the reference's last stage at edge n is its own spelling; the two
  spellings agree on real data — regrouping a thirteen-term sum needs only commutativity and associativity, while the
  softmax identity e^(z1−m) / (e^(z0−m) + e^(z1−m)) = 1 / (1 + e^(−(z1−z0))) needs real logits, which the precondition
  gives: every input entry is real, a gathered entry is an input entry, and sums, products and maxima of reals are real.
  The three frames are the programs' runs with the results dropped; the idealization rewrote nothing.
-/
import proofs.«163541_j61598420959300_2_alg».proof.Defs
import proofs.«163541_j61598420959300_2_alg».proof.Proof.Gen.Kernel
import proofs.«163541_j61598420959300_2_alg».proof.Proof.Gen.Kernel.Frame
import proofs.«163541_j61598420959300_2_alg».proof.Proof.Gen.KernelIdeal
import proofs.«163541_j61598420959300_2_alg».proof.Proof.Gen.KernelIdeal.Frame
import proofs.«163541_j61598420959300_2_alg».proof.Proof.Gen.ReferenceIdeal
import proofs.«163541_j61598420959300_2_alg».proof.Proof.Gen.Pre_finite_inputs
import proofs.«163541_j61598420959300_2_alg».proof.Proof.Gen.ReferenceIdeal.Run
import proofs.«163541_j61598420959300_2_alg».proof.Proof.Gen.ReferenceIdeal.Read
import proofs.«163541_j61598420959300_2_alg».proof.Proof.KernelBlocks
import proofs.«163541_j61598420959300_2_alg».proof.Proof.KernelTail
import proofs.«163541_j61598420959300_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel ends with the edge column in its result buffer; the reference, run from the same arguments, ends
    with its last stage there, which under the precondition is the same column. -/
theorem algebraic : Cert.algebraic_KernelIdeal_ReferenceIdeal := by
  intro m ρ m' ρ' hpre hagree
  refine ⟨fun c => Cert.KernelTail.resultCol m c,
    Cert.KernelTail.run_value m ρ (fun c => Cert.KernelBlocks.final10 m c), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v52_eq, e0, e1, e2, e3, e4, e5, e6, e7]
  exact Cert.Bridge.ref_eq_kernel m c (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
